-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x64x64 : Shape := ⟨4, ![32, 512, 64, 64]⟩
abbrev S32x512 : Shape := ⟨2, ![32, 512]⟩
abbrev S512x32 : Shape := ⟨2, ![512, 32]⟩
abbrev S_ : Shape := ⟨0, ![]⟩

class Facts : Prop where
  bcast_S_S32x512x64x64 : S_.BroadcastsInDim S32x512x64x64 (![] : Fin 0 → Fin S32x512x64x64.rank)
  reducesTo_S32x512x64x64_S_d0_1_2_3 : S32x512x64x64.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S512x32 : S_.BroadcastsInDim S512x32 (![] : Fin 0 → Fin S512x32.rank)
  reducesTo_S512x32_S_d0_1 : S512x32.ReducesTo [0, 1] S_

variable [Facts]

def fn {F : FTy → Type} [FloatOps F] (main_arg0 : FVec F S32x512x64x64 .f32) (main_arg1 : FVec F S32x512 .f32) (main_arg2 : FVec F S512x32 .f32) : IVec S_ 1 :=
  let main_v0 : FVec F S32x512x64x64 .f32 := Host.absf main_arg0
  let main_cst : FVec F S_ .f32 := constant S_ .f32 0x7F800000#32
  let main_v1 : FVec F S32x512x64x64 .f32 := broadcastInDim S32x512x64x64 ![] bcast_S_S32x512x64x64 main_cst
  let main_v2 : IVec S32x512x64x64 1 := cmpf .olt main_v0 main_v1
  let main_c : IVec S_ 1 := constantI S_ 1 1#1
  let main_v3 : IVec S_ 1 := (fun x v => Host.reduce IntOp.andi x v reducesTo_S32x512x64x64_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S512x32 .f32 := Host.absf main_arg2
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  main_v13
-- ==== Kernel.lean ====
abbrev S32x512x64x64 : Shape := ⟨4, ![32, 512, 64, 64]⟩
abbrev S32x512 : Shape := ⟨2, ![32, 512]⟩
abbrev S512x32 : Shape := ⟨2, ![512, 32]⟩
abbrev S32x512x4096 : Shape := ⟨3, ![32, 512, 4096]⟩
abbrev S1x512x4096 : Shape := ⟨3, ![1, 512, 4096]⟩
abbrev S512x4096 : Shape := ⟨2, ![512, 4096]⟩
abbrev S512 : Shape := ⟨1, ![512]⟩
abbrev S512x1 : Shape := ⟨2, ![512, 1]⟩
abbrev S32 : Shape := ⟨1, ![32]⟩
abbrev S1x32 : Shape := ⟨2, ![1, 32]⟩

abbrev nBuf : Space → Nat
  | .hbm => 8
  | .vmem => 6
  | .smem => 0
  | _ => 0

abbrev bufTy : (tb : Table) → Fin (tcTables nBuf tb) → BufTy
  | .hbm, ⟨0, _⟩ => ⟨S32x512x64x64, .f32⟩
  | .hbm, ⟨1, _⟩ => ⟨S32x512, .f32⟩
  | .hbm, ⟨2, _⟩ => ⟨S512x32, .f32⟩
  | .hbm, ⟨3, _⟩ => ⟨S32x512x4096, .f32⟩
  | .hbm, ⟨4, _⟩ => ⟨S512x32, .f32⟩
  | .hbm, ⟨5, _⟩ => ⟨S32x512x4096, .bf16⟩
  | .hbm, ⟨6, _⟩ => ⟨S32x512x64x64, .bf16⟩
  | .hbm, ⟨7, _⟩ => ⟨S32x512x64x64, .f32⟩
  | .local _ .vmem, ⟨0, _⟩ => ⟨S1x512x4096, .f32⟩
  | .local _ .vmem, ⟨1, _⟩ => ⟨S1x512x4096, .f32⟩
  | .local _ .vmem, ⟨2, _⟩ => ⟨S512x32, .f32⟩
  | .local _ .vmem, ⟨3, _⟩ => ⟨S512x32, .f32⟩
  | .local _ .vmem, ⟨4, _⟩ => ⟨S1x512x4096, .bf16⟩
  | .local _ .vmem, ⟨5, _⟩ => ⟨S1x512x4096, .bf16⟩
  | _, _ => ⟨S32x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x512x64x64_S32x512x4096 : S32x512x64x64.ShapeCasts S32x512x4096
  transposes_S32x512_S512x32_1_0 : S32x512.Transposes [1, 0] S512x32
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  reduces_S512x4096_S512 : S512x4096.Reduces [1] S512
  shapeCasts_S512_S512x1 : S512.ShapeCasts S512x1
  inb_S512x32_S512x32_0_0 : ∀ a, (![0, 0] : Fin 2 → Nat) a + S512x32.size a ≤ S512x32.size a
  h_S512x32 : 0 < S512x32.numel
  shapeCasts_S512x32_S512x32 : S512x32.ShapeCasts S512x32
  broadcasts_S512x1_S512x32 : S512x1.Broadcasts S512x32
  reduces_S512x32_S32 : S512x32.Reduces [0] S32
  shapeCasts_S32_S1x32 : S32.ShapeCasts S1x32
  broadcasts_S1x32_S512x32 : S1x32.Broadcasts S512x32
  reduces_S512x32_S512 : S512x32.Reduces [1] S512
  broadcasts_S512x1_S512x4096 : S512x1.Broadcasts S512x4096
  bitsLt_bf16_f32 : FTy.bits .bf16 < FTy.bits .f32
  shapeCasts_S512x4096_S1x512x4096 : S512x4096.ShapeCasts S1x512x4096
  packedbf16_S1x512x4096_S1x512x4096_0_0_0 : (Rect.unit (s := S1x512x4096) ![0, 0, 0] S1x512x4096.size inb_S1x512x4096_S1x512x4096_0_0_0).PackedRows (EltTy.packing .bf16)
  shapeCasts_S32x512x4096_S32x512x64x64 : S32x512x4096.ShapeCasts S32x512x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S32x512x4096.size a
  hwx0_0 : ∀ i : grid0.Coords, EltTy.bits .f32 = 32 ∨ (Rect.block (s := S32x512x4096) S1x512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S512x32.size a
  hwx0_2 : ∀ i : grid0.Coords, EltTy.bits .f32 = 32 ∨ (Rect.block (s := S512x32) S512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x4096.size a ≤ S32x512x4096.size a
  hwx0_3 : ∀ i : grid0.Coords, EltTy.bits .bf16 = 32 ∨ (Rect.block (s := S32x512x4096) S1x512x4096.size (cc0_transform_3 i) (hinb0_3 i)).WholeWords (EltTy.packing .bf16)

variable [Facts₀]

abbrev win0_0 : Pipeline.Window sig grid0 :=
  Pipeline.Window.ofSpec (Memref.whole main_v0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512x64x64 : Shape := ⟨4, ![32, 512, 64, 64]⟩
abbrev S32x512 : Shape := ⟨2, ![32, 512]⟩
abbrev S512x32 : Shape := ⟨2, ![512, 32]⟩
abbrev S32x512x4096 : Shape := ⟨3, ![32, 512, 4096]⟩
abbrev S32x512x1 : Shape := ⟨3, ![32, 512, 1]⟩
abbrev S1x512x2048 : Shape := ⟨3, ![1, 512, 2048]⟩
abbrev S1x512x1 : Shape := ⟨3, ![1, 512, 1]⟩
abbrev S512x1 : Shape := ⟨2, ![512, 1]⟩
abbrev S512x2048 : Shape := ⟨2, ![512, 2048]⟩
abbrev S512 : Shape := ⟨1, ![512]⟩
abbrev S32 : Shape := ⟨1, ![32]⟩
abbrev S1x32 : Shape := ⟨2, ![1, 32]⟩

abbrev nBuf : Space → Nat
  | .hbm => 8
  | .vmem => 13
  | .smem => 0
  | _ => 0

abbrev bufTy : (tb : Table) → Fin (tcTables nBuf tb) → BufTy
  | .hbm, ⟨0, _⟩ => ⟨S32x512x64x64, .f32⟩
  | .hbm, ⟨1, _⟩ => ⟨S32x512, .f32⟩
  | .hbm, ⟨2, _⟩ => ⟨S512x32, .f32⟩
  | .hbm, ⟨3, _⟩ => ⟨S32x512x4096, .f32⟩
  | .hbm, ⟨4, _⟩ => ⟨S512x32, .f32⟩
  | .hbm, ⟨5, _⟩ => ⟨S32x512x1, .f32⟩
  | .hbm, ⟨6, _⟩ => ⟨S32x512x4096, .f32⟩
  | .hbm, ⟨7, _⟩ => ⟨S32x512x64x64, .f32⟩
  | .local _ .vmem, ⟨0, _⟩ => ⟨S1x512x2048, .f32⟩
  | .local _ .vmem, ⟨1, _⟩ => ⟨S1x512x2048, .f32⟩
  | .local _ .vmem, ⟨2, _⟩ => ⟨S512x32, .f32⟩
  | .local _ .vmem, ⟨3, _⟩ => ⟨S512x32, .f32⟩
  | .local _ .vmem, ⟨4, _⟩ => ⟨S1x512x1, .f32⟩
  | .local _ .vmem, ⟨5, _⟩ => ⟨S1x512x1, .f32⟩
  | .local _ .vmem, ⟨6, _⟩ => ⟨S512x1, .f32⟩
  | .local _ .vmem, ⟨7, _⟩ => ⟨S1x512x2048, .f32⟩
  | .local _ .vmem, ⟨8, _⟩ => ⟨S1x512x2048, .f32⟩
  | .local _ .vmem, ⟨9, _⟩ => ⟨S1x512x1, .f32⟩
  | .local _ .vmem, ⟨10, _⟩ => ⟨S1x512x1, .f32⟩
  | .local _ .vmem, ⟨11, _⟩ => ⟨S1x512x2048, .f32⟩
  | .local _ .vmem, ⟨12, _⟩ => ⟨S1x512x2048, .f32⟩
  | _, _ => ⟨S32x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_7 : BitVec 32 := 0#32
  let v14 : BitVec 1 := Scalar.cmpi .ne v13 c0_i32_7
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![32, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S32x512x64x64_S32x512x4096 : S32x512x64x64.ShapeCasts S32x512x4096
  transposes_S32x512_S512x32_1_0 : S32x512.Transposes [1, 0] S512x32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  inb_S512x32_S512x32_0_0 : ∀ a, (![0, 0] : Fin 2 → Nat) a + S512x32.size a ≤ S512x32.size a
  h_S512x32 : 0 < S512x32.numel
  shapeCasts_S512x32_S512x32 : S512x32.ShapeCasts S512x32
  broadcasts_S512x1_S512x32 : S512x1.Broadcasts S512x32
  reduces_S512x32_S32 : S512x32.Reduces [0] S32
  shapeCasts_S32_S1x32 : S32.ShapeCasts S1x32
  broadcasts_S1x32_S512x32 : S1x32.Broadcasts S512x32
  reduces_S512x32_S512 : S512x32.Reduces [1] S512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  broadcasts_S512x1_S512x2048 : S512x1.Broadcasts S512x2048
  shapeCasts_S512x2048_S1x512x2048 : S512x2048.ShapeCasts S1x512x2048
  shapeCasts_S32x512x4096_S32x512x64x64 : S32x512x4096.ShapeCasts S32x512x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S32x512x4096.size a
  hwx0_0 : ∀ i : grid0.Coords, EltTy.bits .f32 = 32 ∨ (Rect.block (s := S32x512x4096) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S512x32.size a
  hwx0_2 : ∀ i : grid0.Coords, EltTy.bits .f32 = 32 ∨ (Rect.block (s := S512x32) S512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S32x512x1.size a
  hwx0_3 : ∀ i : grid0.Coords, EltTy.bits .f32 = 32 ∨ (Rect.block (s := S32x512x1) S1x512x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x2048.size a ≤ S32x512x4096.size a
  hwx1_0 : ∀ i : grid1.Coords, EltTy.bits .f32 = 32 ∨ (Rect.block (s := S32x512x4096) S1x512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1.size a ≤ S32x512x1.size a
  hwx1_1 : ∀ i : grid1.Coords, EltTy.bits .f32 = 32 ∨ (Rect.block (s := S32x512x1) S1x512x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x2048.size a ≤ S32x512x4096.size a
  hwx1_2 : ∀ i : grid1.Coords, EltTy.bits .f32 = 32 ∨ (Rect.block (s := S32x512x4096) S1x512x2048.size (cc1_transform_2 i) (hinb1_2 i)).WholeWords (EltTy.packing .f32)

variable [Facts₀]

abbrev win0_0 : Pipeline.Window sig grid0 :=
  Pipeline.Window.ofSpec (Memref.whole main_v0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v0) S1x512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== Proof.Spec.lean ====
/-
  The squeeze-and-excite map both programs compute, stated once so that neither side opens it.

  For one batch element, let a(c) be the sum of channel c's 4096 spatial entries. Both programs then form
      pooled(c) = a(c) * 2^-12,   h(j) = max (sum_c w1t(c, j) * pooled(c)) 0,   s(c) = logistic (sum_j w2(c, j) * h(j))
  by the SAME chain of vector operations (a column scaled by a constant, repeated along rows, multiplied into a
  weight tile, summed down the rows, clamped at zero, repeated down the columns, multiplied, summed along the rows,
  passed through the logistic). excite is that chain as one function of the column a and the two weight tiles:
  whatever column goes in, the two programs apply the same function to it, so only the columns have to be compared.

  The result array is the input scaled channel by channel: out(b, c, y, z) = x(b, c, y, z) * s_b(c).
-/
import Idealize.ShloMosaic.PureOps.Ideal
import Idealize.ShloMosaic.PureOps.Ideal.Laws
import Idealize.ShloMosaic.Lib.ValueIdx

noncomputable section

namespace Cert.SE

open Idealize.ShloMosaic Idealize.ShloMosaic.ValueIdx

/-- The input and result arrays: batch x channel x 64 x 64. -/
abbrev SX : Shape := ⟨4, ![32, 512, 64, 64]⟩
/-- The first weight as given, hidden x channel, and both weights as the programs use them, channel x hidden. -/
abbrev SW1 : Shape := ⟨2, ![32, 512]⟩
abbrev SW : Shape := ⟨2, ![512, 32]⟩
/-- One entry per channel, as a column; as a vector; one entry per hidden unit, as a vector and as a row. -/
abbrev SCol : Shape := ⟨2, ![512, 1]⟩
abbrev SVc : Shape := ⟨1, ![512]⟩
abbrev SVh : Shape := ⟨1, ![32]⟩
abbrev SRow : Shape := ⟨2, ![1, 32]⟩

theorem sc_w : SW.ShapeCasts SW := by decide
theorem bc_col_w : SCol.Broadcasts SW := by decide
theorem red_rows : SW.Reduces [0] SVh := by decide
theorem sc_row : SVh.ShapeCasts SRow := by decide
theorem bc_row_w : SRow.Broadcasts SW := by decide
theorem red_lanes : SW.Reduces [1] SVc := by decide
theorem sc_col : SVc.ShapeCasts SCol := by decide
theorem tr_w1 : SW1.Transposes [1, 0] SW := by decide

/-- From the column of per-channel sums to the column of per-channel scales: mean, first layer, clamp at zero,
    second layer, logistic - the operations both programs apply, in their order. -/
def excite (a : FVec Ideal SCol .f32) (w1t w2 : FVec Ideal SW .f32) : FVec Ideal SCol .f32 :=
  logistic (shapeCast SCol
    (multiReduction .add [1] SVc
      (mulf w2 (broadcastTo SW
        (maximumf
          (shapeCast SRow
            (multiReduction .add [0] SVh
              (mulf (shapeCast SW w1t sc_w)
                (broadcastTo SW (mulf a (broadcast SCol (Scalar.ofBits .f32 0x39800000#32))) bc_col_w))
              0x00000000#32 red_rows (.inl rfl) rfl)
            sc_row)
          (broadcast SRow (Scalar.ofBits .f32 0x00000000#32)))
        bc_row_w))
      0x00000000#32 red_lanes (.inl rfl) rfl)
    sc_col)

/-- The first weight with its axes exchanged, as both programs pass it to their kernels. -/
def w1T (w1 : FVec Ideal SW1 .f32) : FVec Ideal SW .f32 := transpose SW [1, 0] w1 tr_w1

/-- The result: every entry of channel c of batch element b times that channel's scale, the scale computed from
    the column acc b of the batch element's per-channel sums. -/
def out (acc : Fin 32 → FVec Ideal SCol .f32) (x : FVec Ideal SX .f32) (w1 : FVec Ideal SW1 .f32) (w2 : FVec Ideal SW .f32) :
    FVec Ideal SX .f32 :=
  fun i => x i * excite (acc (i 0)) (w1T w1) w2 (ix2 (i 1) (0 : Fin 1))

/-- A channel's sum taken in one pass over its 4096 entries, the 64 x 64 plane read row by row. -/
def accFlat (x : FVec Ideal SX .f32) (b : Fin 32) : FVec Ideal SCol .f32 :=
  fun j => ∑ l : Fin 4096, x (ix4 b (j 0) ⟨l.val / 64, by omega⟩ ⟨l.val % 64, by omega⟩)

/-- The same sum taken as two halves of 2048 entries added one after the other to a zero. -/
def accSplit (x : FVec Ideal SX .f32) (b : Fin 32) : FVec Ideal SCol .f32 :=
  fun j => (Ideal.ofBits .f32 0x00000000#32
      + ∑ l : Fin 2048, x (ix4 b (j 0) ⟨l.val / 64, by omega⟩ ⟨l.val % 64, by omega⟩))
    + ∑ l : Fin 2048, x (ix4 b (j 0) ⟨(2048 + l.val) / 64, by omega⟩ ⟨(2048 + l.val) % 64, by omega⟩)

/-- Adding the two halves to zero is the one-pass sum: addition of extended reals is associative with unit zero,
    and the 4096 positions are the first 2048 followed by the last 2048. -/
theorem accSplit_eq_accFlat (x : FVec Ideal SX .f32) (b : Fin 32) : accSplit x b = accFlat x b := by
  funext j
  unfold accSplit accFlat
  rw [Ideal.ofBits_zero_f32, zero_add]
  have h := Fin.sum_univ_add (M := EReal) (a := 2048) (b := 2048)
    (fun l : Fin (2048 + 2048) => x (ix4 b (j 0) ⟨l.val / 64, by omega⟩ ⟨l.val % 64, by omega⟩))
  exact h.symm

theorem out_split_eq_flat (x : FVec Ideal SX .f32) (w1 : FVec Ideal SW1 .f32) (w2 : FVec Ideal SW .f32) :
    out (accSplit x) x w1 w2 = out (accFlat x) x w1 w2 := by
  rw [show accSplit x = accFlat x from funext (accSplit_eq_accFlat x)]

end Cert.SE

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.KernelBlock.lean ====
/-
  What one grid step of the kernel stores, read entry by entry.

  A step loads one batch element's block x0 of shape 1 x 512 x 4096 and the two weight tiles, and stores one block of the
  same shape. Written as one term, the stored block is the loaded block, seen as 512 rows of 4096 entries, times the
  column of per-channel scales repeated along each row; and the column of scales is the squeeze-and-excite map applied
  to the column of row sums of the block. At entry (0, c, l) this is x0(0, c, l) times the scale of channel c, and the
  row sum of channel c is the sum of the 4096 entries x0(0, c, l'). Narrowing to the 16-bit format is the identity on
  extended reals, so it leaves no trace.
-/
import proofs.«161758_g2000407024704625_pallasbulk_269_21_alg».proof.Proof.Gen.KernelIdeal.Skeleton
import proofs.«161758_g2000407024704625_pallasbulk_269_21_alg».proof.Proof.Spec
import proofs.«161758_g2000407024704625_pallasbulk_269_21_alg».proof.Proof.LibLayout
import Idealize.ShloMosaic.Lib.ValueLayout
import Idealize.ShloMosaic.PureOps.Ideal.Laws

noncomputable section

namespace Cert.KernelIdeal.KV

open Idealize.ShloMosaic Idealize.ShloMosaic.ValueIdx
open Cert.KernelIdeal

/-- The column of row sums of a block: entry (c, 0) is the sum of the 4096 entries of row c. -/
def blockSums (x0 : Vec Ideal S1x512x4096 .f32) : FVec Ideal Cert.SE.SCol .f32 :=
  fun j => ∑ l : Fin 4096, x0 (ix3 (0 : Fin 1) (j 0) l)

/-- The stored block as one term: the block's rows times the scale column repeated along the rows, the scale column
    the squeeze-and-excite map of the column of row sums. Both sides are the same tree of operations. -/
theorem pay_eq (x0 : Vec Ideal S1x512x4096 .f32) (w1t w2 : Vec Ideal S512x32 .f32) :
    Gen.k0_pay1 x0 w1t w2
      = shapeCast S1x512x4096
          (truncf .bf16
            (mulf (shapeCast S512x4096 x0 Gen.shapeCasts_S1x512x4096_S512x4096)
              (broadcastTo S512x4096
                (Cert.SE.excite
                  (shapeCast S512x1
                    (multiReduction .add [1] S512 (shapeCast S512x4096 x0 Gen.shapeCasts_S1x512x4096_S512x4096)
                      0x00000000#32 Gen.reduces_S512x4096_S512 (.inl rfl) rfl)
                    Gen.shapeCasts_S512_S512x1)
                  w1t w2)
                Gen.broadcasts_S512x1_S512x4096))
            Gen.bitsLt_bf16_f32)
          Gen.shapeCasts_S512x4096_S1x512x4096 := rfl

/-- The sum along the rows of a 512 x 4096 array, as a column, entry by entry. -/
theorem rowSums_apply (v : FVec Ideal S512x4096 .f32) (hacc : (0x00000000#32 : BitVec 32) = 0x00000000#32)
    (c : Fin 512) (u : Fin 1) :
    shapeCast S512x1
        (multiReduction .add [1] S512 v 0x00000000#32 Gen.reduces_S512x4096_S512 (.inl rfl) hacc)
        Gen.shapeCasts_S512_S512x1 (ix2 c u)
      = ∑ l : Fin 4096, v (ix2 c l) := by
  refine (Cert.LibLayout.shapeCast_a_a1_apply _ Gen.shapeCasts_S512_S512x1 c u).trans ?_
  refine (Ideal.multiReduction_add_single v 0x00000000#32 Gen.reduces_S512x4096_S512 (.inl rfl) hacc (ix1 c)).trans ?_
  refine Finset.sum_congr rfl fun l _ => congrArg v ?_
  funext a
  match a with
  | ⟨0, _⟩ => rfl
  | ⟨1, _⟩ => rfl

/-- The column of row sums of the block seen as 512 rows is the block's column of row sums. -/
theorem rowSums_eq (x0 : Vec Ideal S1x512x4096 .f32) :
    shapeCast S512x1
        (multiReduction .add [1] S512 (shapeCast S512x4096 x0 Gen.shapeCasts_S1x512x4096_S512x4096)
          0x00000000#32 Gen.reduces_S512x4096_S512 (.inl rfl) rfl)
        Gen.shapeCasts_S512_S512x1
      = blockSums x0 := by
  funext j
  obtain ⟨c, u, rfl⟩ : ∃ (c : Fin 512) (u : Fin 1), j = ix2 c u := ⟨j 0, j 1, eq_ix2 j⟩
  refine (rowSums_apply _ rfl c u).trans ?_
  unfold blockSums
  refine Finset.sum_congr rfl fun l _ => ?_
  exact shapeCast_1ab_ab_apply x0 Gen.shapeCasts_S1x512x4096_S512x4096 c l

/-- THE STORED BLOCK AT AN ENTRY: the loaded entry times its channel's scale. -/
theorem pay_apply (x0 : Vec Ideal S1x512x4096 .f32) (w1t w2 : Vec Ideal S512x32 .f32)
    (u : Fin 1) (c : Fin 512) (l : Fin 4096) :
    Gen.k0_pay1 x0 w1t w2 (ix3 u c l)
      = x0 (ix3 (0 : Fin 1) c l) * Cert.SE.excite (blockSums x0) w1t w2 (ix2 c (0 : Fin 1)) := by
  rw [pay_eq, rowSums_eq]
  refine (shapeCast_ab_1ab_apply _ Gen.shapeCasts_S512x4096_S1x512x4096 u c l).trans ?_
  show shapeCast S512x4096 x0 Gen.shapeCasts_S1x512x4096_S512x4096 (ix2 c l)
      * broadcastTo S512x4096 (Cert.SE.excite (blockSums x0) w1t w2) Gen.broadcasts_S512x1_S512x4096 (ix2 c l) = _
  rw [shapeCast_1ab_ab_apply x0 Gen.shapeCasts_S1x512x4096_S512x4096 c l,
    Cert.LibLayout.broadcastTo_a1_ab_apply _ Gen.broadcasts_S512x1_S512x4096 c l]

end Cert.KernelIdeal.KV

end
-- ==== Proof.KernelArray.lean ====
/-
  From the blocks to the array the kernel's region leaves.

  The region runs over 32 grid points. Point t loads block t of the reshaped input (batch element t: all 512 channels,
  all 4096 positions), the two weight tiles whole, and writes block t of the result array. With the stored block read
  entry by entry, what point t writes back is block t of ONE function of the three arrays the region finds: the input
  entry times its channel's scale, the scale computed from the row sums of the entry's own batch element. The 32 blocks
  tile the result array, so after the run the array is that function everywhere.
-/
import proofs.«161758_g2000407024704625_pallasbulk_269_21_alg».proof.Proof.Gen.KernelIdeal.Frame
import proofs.«161758_g2000407024704625_pallasbulk_269_21_alg».proof.Proof.KernelBlock
import Idealize.ShloMosaic.Lib.Pipeline.Value

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The column of row sums of batch element b of a 32 x 512 x 4096 array. -/
def arraySums (X : FVec Ideal S32x512x4096 .f32) (b : Fin 32) : FVec Ideal Cert.SE.SCol .f32 :=
  fun j => ∑ l : Fin 4096, X (ix3 b (j 0) l)

/-- What the region leaves in its result array, as one function of the arrays it finds: each entry of the input
    times the scale of its channel, computed from the row sums of its batch element. -/
def regionOut (X : FVec Ideal S32x512x4096 .f32) (w1t w2 : FVec Ideal S512x32 .f32) : FVec Ideal S32x512x4096 .bf16 :=
  fun i => X i * Cert.SE.excite (arraySums X (i 0)) w1t w2 (ix2 (i 1) (0 : Fin 1))

/-- A block that is batch element b of the array stores, at (0, c, l), the function at (b, c, l). -/
theorem pay_block (X : FVec Ideal S32x512x4096 .f32) (w1t w2 : FVec Ideal S512x32 .f32) (b : Fin 32)
    (x0 : Vec Ideal S1x512x4096 .f32) (hx0 : ∀ (c : Fin 512) (l : Fin 4096), x0 (ix3 (0 : Fin 1) c l) = X (ix3 b c l))
    (u : Fin 1) (c : Fin 512) (l : Fin 4096) :
    Gen.k0_pay1 x0 w1t w2 (ix3 u c l) = regionOut X w1t w2 (ix3 b c l) := by
  rw [pay_apply, hx0]
  have hs : blockSums x0 = arraySums X b := by
    funext j
    unfold blockSums arraySums
    exact Finset.sum_congr rfl fun l' _ => hx0 (j 0) l'
  rw [hs]
  rfl

/-- The index maps over the grid: the input's and the result's block index is the point on the batch axis and zero on
    the other two; the weight tiles' block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The input's block at point t is batch element t of the array the region finds. -/
theorem iblk0_apply (c : Dev nD) (t : Fin cfg0.N) (b : Fin 32) (hb : b.val = t.val) (c' : Fin 512) (l : Fin 4096) :
    (Gen.iblk m c 0 t : Vec Ideal S1x512x4096 .f32) (ix3 (0 : Fin 1) c' l)
      = (Gen.V m c main_v0 : S32x512x4096.Idx → Ideal .f32) (ix3 b c' l) := by
  obtain ⟨e0, e1, e2, -⟩ := idx_facts t
  unfold Gen.iblk
  rw [View.read_apply]
  show Gen.V m c main_v0 _ = Gen.V m c main_v0 _
  refine congrArg (Gen.V m c main_v0) ?_
  funext a
  apply Fin.ext
  match a with
  | ⟨0, _⟩ => show win0_0.index t (0 : Fin 3) * 1 + 1 * 0 = b.val; omega
  | ⟨1, _⟩ => show win0_0.index t (1 : Fin 3) * 512 + 1 * c'.val = c'.val; omega
  | ⟨2, _⟩ => show win0_0.index t (2 : Fin 3) * 4096 + 1 * l.val = l.val; omega

/-- The first weight tile's block is the whole array, at every point. -/
theorem iblk1_eq (c : Dev nD) (t : Fin cfg0.N) :
    (Gen.iblk m c 1 t : Vec Ideal S512x32 .f32) = (Gen.V m c main_v1 : S512x32.Idx → Ideal .f32) := by
  obtain ⟨-, -, -, e0, e1, -⟩ := idx_facts t
  funext y
  unfold Gen.iblk
  rw [View.read_apply]
  show Gen.V m c main_v1 _ = Gen.V m c main_v1 _
  refine congrArg (Gen.V m c main_v1) ?_
  funext a
  apply Fin.ext
  match a with
  | ⟨0, _⟩ => show win0_1.index t (0 : Fin 2) * 512 + 1 * (y 0).val = (y 0).val; omega
  | ⟨1, _⟩ => show win0_1.index t (1 : Fin 2) * 32 + 1 * (y 1).val = (y 1).val; omega

/-- The second weight tile's block is the whole array, at every point. -/
theorem iblk2_eq (c : Dev nD) (t : Fin cfg0.N) :
    (Gen.iblk m c 2 t : Vec Ideal S512x32 .f32) = (Gen.V m c main_arg2 : S512x32.Idx → Ideal .f32) := by
  obtain ⟨-, -, -, -, -, e0, e1, -⟩ := idx_facts t
  funext y
  unfold Gen.iblk
  rw [View.read_apply]
  show Gen.V m c main_arg2 _ = Gen.V m c main_arg2 _
  refine congrArg (Gen.V m c main_arg2) ?_
  funext a
  apply Fin.ext
  match a with
  | ⟨0, _⟩ => show win0_2.index t (0 : Fin 2) * 512 + 1 * (y 0).val = (y 0).val; omega
  | ⟨1, _⟩ => show win0_2.index t (1 : Fin 2) * 32 + 1 * (y 1).val = (y 1).val; omega

/-- WHAT POINT t WRITES BACK is block t of `regionOut` of the arrays the region finds: the stored block read at
    (u, c, l) is the function at (t, c, l), the place of that entry in the result array. -/
theorem flushed_eq (c : Dev nD) (t : Fin cfg0.N) :
    (Gen.dats m 0 c).flushed 3 t = ((cfg0.win 3).blk t).view.read (Elt Ideal)
      (regionOut (Gen.V m c main_v0) (Gen.V m c main_v1) (Gen.V m c main_arg2)) := by
  show (cfg0.win 3).cut (grid0.coords t) ((Gen.dats m 0 c).after 3 t) = _
  rw [Gen.after0_3]
  unfold Gen.out0_3
  rw [View.canon_unit_zero hz3]
  simp only [View.ld_unit_zero (S := S1x512x4096) hz3, View.ld_unit_zero (S := S512x32) hz2]
  rw [iblk1_eq, iblk2_eq]
  obtain ⟨-, -, -, -, -, -, -, e0, e1, e2⟩ := idx_facts t
  have hN : cfg0.N = 32 := Gen.N_0
  have ht : t.val < 32 := hN ▸ t.isLt
  funext y
  have h0 : (y 0).val < 1 := (y 0).isLt
  have h1 : (y 1).val < 512 := (y 1).isLt
  have h2 : (y 2).val < 4096 := (y 2).isLt
  rw [View.read_apply]
  show Gen.k0_pay1 (Gen.iblk m c 0 t) (Gen.V m c main_v1) (Gen.V m c main_arg2) ((cfg0.win 3).xinj (grid0.coords t) y)
    = regionOut (Gen.V m c main_v0) (Gen.V m c main_v1) (Gen.V m c main_arg2) (((cfg0.win 3).blk t).view.emb y)
  have ey : (cfg0.win 3).xinj (grid0.coords t) y
      = ix3 (⟨(y 0).val, h0⟩ : Fin 1) (⟨(y 1).val, h1⟩ : Fin 512) (⟨(y 2).val, h2⟩ : Fin 4096) := by
    funext a
    match a with
    | ⟨0, _⟩ => rfl
    | ⟨1, _⟩ => rfl
    | ⟨2, _⟩ => rfl
  have ee : ((cfg0.win 3).blk t).view.emb y
      = ix3 (⟨t.val, ht⟩ : Fin 32) (⟨(y 1).val, h1⟩ : Fin 512) (⟨(y 2).val, h2⟩ : Fin 4096) := by
    funext a
    apply Fin.ext
    match a with
    | ⟨0, _⟩ => show win0_3.index t (0 : Fin 3) * 1 + 1 * (y 0).val = t.val; omega
    | ⟨1, _⟩ => show win0_3.index t (1 : Fin 3) * 512 + 1 * (y 1).val = (y 1).val; omega
    | ⟨2, _⟩ => show win0_3.index t (2 : Fin 3) * 4096 + 1 * (y 2).val = (y 2).val; omega
  rw [ey, ee]
  exact pay_block (Gen.V m c main_v0) (Gen.V m c main_v1) (Gen.V m c main_arg2) ⟨t.val, ht⟩ (Gen.iblk m c 0 t)
    (fun c' l => iblk0_apply m c t ⟨t.val, ht⟩ rfl c' l) ⟨(y 0).val, h0⟩ ⟨(y 1).val, h1⟩ ⟨(y 2).val, h2⟩

/-- An index of the result array is in point t's block iff each coordinate is in the block's range on its axis. -/
theorem mem_blk3 (t : Fin cfg0.N) (i : S32x512x4096.Idx) :
    i ∈ ((cfg0.win 3).blk t).view.set ↔ ∀ a : Fin 3, win0_3.index t a * S1x512x4096.size a ≤ (i a).val
      ∧ (i a).val < win0_3.index t a * S1x512x4096.size a + S1x512x4096.size a := by
  show i ∈ ((View.whole main_v2).slice (win0_3.rect t)).set ↔ _
  rw [View.set_slice_whole, Rect.mem_set_unit]
  exact Iff.rfl

/-- THE RESULT ARRAY OF THE REGION after the run: entry (b, c, l) lies in the block of point b, and every point writes
    its block back, so the array is `regionOut` of the arrays the region finds. -/
theorem final (c : Dev nD) :
    (Gen.dats m 0 c).arrAt 3 cfg0.N = regionOut (Gen.V m c main_v0) (Gen.V m c main_v1) (Gen.V m c main_arg2) :=
  (Gen.dats m 0 c).arrAt_eq_of_cover 3 _ (fun t _ => flushed_eq m c t) fun i => by
    have hN : cfg0.N = 32 := Gen.N_0
    have hi0 : (i 0).val < 32 := (i 0).isLt
    have hi1 : (i 1).val < 512 := (i 1).isLt
    have hi2 : (i 2).val < 4096 := (i 2).isLt
    have hlt : (i 0).val < cfg0.N := by rw [hN]; exact hi0
    refine ⟨⟨(i 0).val, hlt⟩, Gen.flush0_3 _, ?_⟩
    rw [mem_blk3]
    obtain ⟨-, -, -, -, -, -, -, e0, e1, e2⟩ := idx_facts ⟨(i 0).val, hlt⟩
    have e0 : win0_3.index ⟨(i 0).val, hlt⟩ (0 : Fin 3) = (i 0).val := e0
    intro a
    match a with
    | ⟨0, _⟩ =>
      show win0_3.index _ (0 : Fin 3) * 1 ≤ (i 0).val ∧ (i 0).val < win0_3.index _ (0 : Fin 3) * 1 + 1
      rw [e0]; omega
    | ⟨1, _⟩ =>
      show win0_3.index _ (1 : Fin 3) * 512 ≤ (i 1).val ∧ (i 1).val < win0_3.index _ (1 : Fin 3) * 512 + 512
      rw [e1]; omega
    | ⟨2, _⟩ =>
      show win0_3.index _ (2 : Fin 3) * 4096 ≤ (i 2).val ∧ (i 2).val < win0_3.index _ (2 : Fin 3) * 4096 + 4096
      rw [e2]; omega

end Cert.KernelIdeal.KV

end
-- ==== Proof.KernelRun.lean ====
/-
  The kernel program's result as one function of its three arguments.

  Around the region the program does four things on the host. Before it: the input, batch x channel x 64 x 64, is
  regrouped row-major into batch x channel x 4096, so position l of a channel's row is the entry (l / 64, l % 64) of its
  64 x 64 plane; and the first weight has its axes exchanged. After it: the region's result array is regrouped back into
  64 x 64 planes, entry (y, z) being position 64 y + z of the row, and widened to the 32-bit format, which is the
  identity on extended reals. Put through these, the region's closed form becomes the specification: every input entry
  times the scale of its channel, the scale computed from the batch element's per-channel sums taken in one pass over
  the 4096 positions. A sum over positions l of the regrouped input is, term by term, the sum over l of the plane's
  entries (l / 64, l % 64): no reindexing of the sum is needed.
-/
import proofs.«161758_g2000407024704625_pallasbulk_269_21_alg».proof.Proof.Gen.KernelIdeal.Frame
import proofs.«161758_g2000407024704625_pallasbulk_269_21_alg».proof.Proof.KernelArray
import proofs.«161758_g2000407024704625_pallasbulk_269_21_alg».proof.Proof.Spec
import Idealize.ShloMosaic.Lib.Pipeline.Value
import Idealize.ShloMosaic.Lib.StableHlo.Run

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The region finds the input regrouped into rows of 4096 positions. -/
theorem V_main_v0 (c : Dev nD) :
    (Gen.V m c main_v0 : S32x512x4096.Idx → Ideal .f32)
      = shapeCast S32x512x4096 (m ((c : Thread nD τ).loc main_arg0)) Gen.shapeCasts_S32x512x64x64_S32x512x4096 := by
  show StableHlo.after Gen.hostOps0 (fun b => m (c, b)) (Proc.devRef .tc main_v0) = _
  after_results
  rfl

/-- The region finds the first weight with its axes exchanged. -/
theorem V_main_v1 (c : Dev nD) :
    (Gen.V m c main_v1 : S512x32.Idx → Ideal .f32) = Cert.SE.w1T (m ((c : Thread nD τ).loc main_arg1)) := by
  show StableHlo.after Gen.hostOps0 (fun b => m (c, b)) (Proc.devRef .tc main_v1) = _
  after_results
  rfl

/-- The regrouped input at (b, c, l) is the input at (b, c, l / 64, l % 64): both sit at row-major position
    (b * 512 + c) * 4096 + l. -/
theorem regroup_apply (X : FVec Ideal Cert.SE.SX .f32) (b : Fin 32) (c : Fin 512) (l : Fin 4096) :
    shapeCast S32x512x4096 X Gen.shapeCasts_S32x512x64x64_S32x512x4096 (ix3 b c l)
      = X (ix4 b c ⟨l.val / 64, by omega⟩ ⟨l.val % 64, by omega⟩) :=
  shapeCast_apply X Gen.shapeCasts_S32x512x64x64_S32x512x4096 _ _ (by
    rw [Shape.rowMajor_val_four, Shape.rowMajor_val_three]
    show ((b.val * 512 + c.val) * 64 + l.val / 64) * 64 + l.val % 64 = (b.val * 512 + c.val) * 4096 + l.val
    omega)

/-- The row sums of batch element b of the regrouped input are the per-channel sums of the input taken in one pass. -/
theorem arraySums_regroup (X : FVec Ideal Cert.SE.SX .f32) (b : Fin 32) :
    arraySums (shapeCast S32x512x4096 X Gen.shapeCasts_S32x512x64x64_S32x512x4096) b = Cert.SE.accFlat X b := by
  funext j
  unfold arraySums Cert.SE.accFlat
  exact Finset.sum_congr rfl fun l _ => regroup_apply X b (j 0) l

/-- THE PROGRAM'S RESULT IS THE SPECIFICATION: the region's closed form on the regrouped input and the exchanged
    weight, regrouped back into planes and widened, is every input entry times its channel's scale. -/
theorem tail_eq_out (X : FVec Ideal Cert.SE.SX .f32) (w1 : FVec Ideal Cert.SE.SW1 .f32) (w2 : FVec Ideal Cert.SE.SW .f32) :
    (extf .f32
        (shapeCast S32x512x64x64
          (regionOut (shapeCast S32x512x4096 X Gen.shapeCasts_S32x512x64x64_S32x512x4096) (Cert.SE.w1T w1) w2)
          Gen.shapeCasts_S32x512x4096_S32x512x64x64)
        Gen.bitsLt_bf16_f32 : FVec Ideal S32x512x64x64 .f32)
      = Cert.SE.out (Cert.SE.accFlat X) X w1 w2 := by
  funext i
  obtain ⟨b, c, y, z, rfl⟩ : ∃ (b : Fin 32) (c : Fin 512) (y z : Fin 64), i = ix4 b c y z :=
    ⟨i 0, i 1, i 2, i 3, eq_ix4 i⟩
  have hl : y.val * 64 + z.val < 4096 := by omega
  show shapeCast S32x512x64x64
      (regionOut (shapeCast S32x512x4096 X Gen.shapeCasts_S32x512x64x64_S32x512x4096) (Cert.SE.w1T w1) w2)
      Gen.shapeCasts_S32x512x4096_S32x512x64x64 (ix4 b c y z) = _
  refine (shapeCast_apply _ Gen.shapeCasts_S32x512x4096_S32x512x64x64 (ix4 b c y z)
    (ix3 b c (⟨y.val * 64 + z.val, hl⟩ : Fin 4096)) (by
      rw [Shape.rowMajor_val_four, Shape.rowMajor_val_three]
      show (b.val * 512 + c.val) * 4096 + (y.val * 64 + z.val) = ((b.val * 512 + c.val) * 64 + y.val) * 64 + z.val
      omega)).trans ?_
  show shapeCast S32x512x4096 X Gen.shapeCasts_S32x512x64x64_S32x512x4096 (ix3 b c (⟨y.val * 64 + z.val, hl⟩ : Fin 4096))
      * Cert.SE.excite (arraySums (shapeCast S32x512x4096 X Gen.shapeCasts_S32x512x64x64_S32x512x4096) b)
          (Cert.SE.w1T w1) w2 (ix2 c (0 : Fin 1))
    = X (ix4 b c y z) * Cert.SE.excite (Cert.SE.accFlat X b) (Cert.SE.w1T w1) w2 (ix2 c (0 : Fin 1))
  rw [arraySums_regroup, regroup_apply]
  have e : (ix4 b c (⟨(y.val * 64 + z.val) / 64, by omega⟩ : Fin 64) (⟨(y.val * 64 + z.val) % 64, by omega⟩ : Fin 64)
      : Cert.SE.SX.Idx) = ix4 b c y z := by
    have hy : (y.val * 64 + z.val) / 64 = y.val := by omega
    have hz : (y.val * 64 + z.val) % 64 = z.val := by omega
    funext a
    match a with
    | ⟨0, _⟩ => rfl
    | ⟨1, _⟩ => rfl
    | ⟨2, _⟩ => exact Fin.ext hy
    | ⟨3, _⟩ => exact Fin.ext hz
  rw [e]

/-- What the host lines after the region leave in the program's result buffer: the region's result array regrouped
    into planes and widened. -/
theorem tail_v4 (c : Dev nD) :
    Pipeline.afterTail₀ cfgs (Gen.dats m) 0 (Gen.V0 m) [Gen.hostOps1] c main_v4
      = (extf .f32
          (shapeCast S32x512x64x64
            (regionOut (Gen.V m c main_v0) (Gen.V m c main_v1) (Gen.V m c main_arg2))
            Gen.shapeCasts_S32x512x4096_S32x512x64x64)
          Gen.bitsLt_bf16_f32 : FVec Ideal S32x512x64x64 .f32) := by
  unfold Pipeline.afterTail₀
  show StableHlo.after Gen.hostOps1 _ (Proc.devRef .tc main_v4) = _
  after_results
  have hw : Pipeline.withArrays (cfgs 0).spec c (Gen.V0 m c) (fun w => (Gen.dats m 0 c).arrAt w (cfgs 0).N)
      (Proc.devRef .tc main_v2) = regionOut (Gen.V m c main_v0) (Gen.V m c main_v1) (Gen.V m c main_arg2) :=
    (Pipeline.withArrays_arr spec0 Gen.launch0.win.arr_inj c _ _ 3).trans (final m c)
  rw [hw]
  rfl

/-- The program's result buffer after the run is the specification of the launch contents of its arguments. -/
theorem result_eq (c : Dev nD) :
    Pipeline.afterTail₀ cfgs (Gen.dats m) 0 (Gen.V0 m) [Gen.hostOps1] c main_v4
      = Cert.SE.out (Cert.SE.accFlat (m ((c.tc : Thread nD τ).loc main_arg0))) (m ((c.tc : Thread nD τ).loc main_arg0))
          (m ((c.tc : Thread nD τ).loc main_arg1)) (m ((c.tc : Thread nD τ).loc main_arg2)) := by
  rw [tail_v4, V_main_v0, V_main_v1, Gen.V_main_arg2]
  exact tail_eq_out _ _ _

/-- THE RUN, READ: every weakly fair execution of the program terminates with its result buffer at the specification
    of its arguments and the arguments as launched. -/
theorem run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread _ _).loc Cert.KernelIdeal.main_v4)
          = Cert.SE.out (Cert.SE.accFlat (m ((c.tc : Thread _ _).loc Cert.KernelIdeal.main_arg0))) (m ((c.tc : Thread _ _).loc Cert.KernelIdeal.main_arg0)) (m ((c.tc : Thread _ _).loc Cert.KernelIdeal.main_arg1)) (m ((c.tc : Thread _ _).loc Cert.KernelIdeal.main_arg2))
      ∧ r.2.mem ((c.tc : Thread _ _).loc Cert.KernelIdeal.main_arg0) = m ((c.tc : Thread _ _).loc Cert.KernelIdeal.main_arg0)
      ∧ r.2.mem ((c.tc : Thread _ _).loc Cert.KernelIdeal.main_arg1) = m ((c.tc : Thread _ _).loc Cert.KernelIdeal.main_arg1)
      ∧ r.2.mem ((c.tc : Thread _ _).loc Cert.KernelIdeal.main_arg2) = m ((c.tc : Thread _ _).loc Cert.KernelIdeal.main_arg2)) :=
  (θ_run defs _ _).mono (fun r h c =>
    ⟨((h c).2 main_v4 (Pipeline.mem_restRefs_of main_v4 (by decide) (by decide))).trans (result_eq m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).1 2).trans (((Gen.dats m 0 c).arrAt_in 2 rfl _).trans ((Gen.A_eq m c 2).trans (Gen.V_main_arg2 m c)))⟩)
    (Gen.run_main m ρ)

end Cert.KernelIdeal.KV

end
-- ==== Proof.AccBody.lean ====
/-
  The accumulate-and-finish kernel of the reference, run once per kind of grid point.

  The grid is (batch element, half of the 4096 spatial entries). The kernel keeps a column of 512 running sums
  in a scratch buffer. At a FIRST half (second coordinate 0) it stores zeros into the scratch, adds the row sums
  of the 2048-entry tile, and stores nothing into its result block. At a LAST half (second coordinate 1) it adds
  the tile's row sums to what the first half left and then writes the per-channel scales computed from the
  finished sums into its result block. The two theorems below run the printed body in each of the two situations
  and name what it leaves: the scratch at (previous column, or zeros) + row sums, and, at a last half, the result
  block at the scales of that column.
-/
import proofs.«161758_g2000407024704625_pallasbulk_269_21_alg».proof.Proof.Gen.ReferenceIdeal.Launch
import proofs.«161758_g2000407024704625_pallasbulk_269_21_alg».proof.Proof.Gen.ReferenceIdeal.Skeleton
import proofs.«161758_g2000407024704625_pallasbulk_269_21_alg».proof.Proof.Gen.ReferenceIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.ReferenceIdeal.Acc

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first `scf.if` of the body, over the grid point: the second grid coordinate is zero. -/
abbrev condReset (i : grid0.Coords) : Prop := (Scalar.cmpi .ne (Scalar.extui (Scalar.cmpi .eq (BitVec.ofNat 32 (i 1).val) 0#32)) 0#32) = 1#1
/-- The second `scf.if`: the second grid coordinate is one. -/
abbrev condLast (i : grid0.Coords) : Prop := k0_cond2 i = 1#1

set_option maxHeartbeats 1000000 in
/-- At a first half: the result block is handed back untouched, and the scratch, whatever it held, ends at the
    zero column plus the tile's row sums. -/
theorem runFirst (c : Dev nD) (i : grid0.Coords) (arg2 : Memref sig .tc .vmem S1x512x2048 .f32) (harg2 : arg2.IsWhole) (arg3 : Memref sig .tc .vmem S512x32 .f32) (harg3 : arg3.IsWhole) (arg4 : Memref sig .tc .vmem S512x32 .f32) (harg4 : arg4.IsWhole) (arg5 : Memref sig .tc .vmem S1x512x1 .f32) (harg5 : arg5.IsWhole) (arg6 : Memref sig .tc .vmem S512x1 .f32) (harg6 : arg6.IsWhole)
    (hc0 : condReset i) (hc1 : ¬condLast i)
    (x0 : Vec F S1x512x2048 .f32) (w1 w2 : Vec F S512x32 .f32) (xi5 : Vec F S1x512x1 .f32) (E : Set ℕ) (K : PUnit → sProp 𝕄) :
    iprop(owns (c : Thread nD τ) arg2 fullShare x0 ∗ owns (c : Thread nD τ) arg3 fullShare w1 ∗ owns (c : Thread nD τ) arg4 fullShare w2
        ∗ owns (c : Thread nD τ) arg5 fullShare xi5 ∗ (∃ d, owns (c : Thread nD τ) arg6 fullShare d)
        ∗ (iprop(owns (c : Thread nD τ) arg2 fullShare x0 ∗ owns (c : Thread nD τ) arg3 fullShare w1 ∗ owns (c : Thread nD τ) arg4 fullShare w2
            ∗ owns (c : Thread nD τ) arg5 fullShare xi5 ∗ owns (c : Thread nD τ) arg6 fullShare (k0_pay2 (k0_pay1 (F := F)) x0)) -∗ K ⟨⟩))
      ⊢ wp frame (wpE (defs₀ (F := F)) Variants.none c none) E (cc0__kernel_body i arg2 harg2 arg3 harg3 arg4 harg4 arg5 harg5 arg6 harg6) K := by
  simp only [cc0__kernel_body_eq_skeleton]; unfold cc0__kernel_body_skel
  unfold owns
  iintro ⟨⟨%f0, %hf0, H0⟩, ⟨%f1, %hf1, H1⟩, ⟨%f2, %hf2, H2⟩, ⟨%f5, %hf5, H5⟩, ⟨%d6, %f6, -, H6⟩, Hk⟩
  obtain rfl := harg2.eq_unread hf0; obtain rfl := harg3.eq_unread hf1; obtain rfl := harg4.eq_unread hf2; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr; · ipureintro; exact harg5.read_unread _
    iexact H5
  iexists _; isplitr
  swap; · iexact H6
  ipureintro
  have hz2 : (![0, 0] : Fin 2 → Nat) = fun _ => 0 := by funext a; fin_cases a <;> rfl
  have hz3 : (![0, 0, 0] : Fin 3 → Nat) = fun _ => 0 := by funext a; fin_cases a <;> rfl
  rw [View.read_writes_eq_canon _ _ _ (fun y => ⟨_, List.mem_cons_self, View.mem_set_unit_zero hz2 Facts₀.inb_S512x1_S512x1_0_0 y⟩)]
  rw [View.canon_cons_unit_zero hz2]
  sl_unfold_words
  rw [View.readCov_unit_zero _ hz2]
  simp only [View.readAt_eq_ld, harg2.read_unread, View.ld_unit_zero (S := S1x512x2048) hz3]

set_option maxHeartbeats 1000000 in
/-- At a last half, the scratch holding the column `xs` the first half left: the scratch ends at `xs` plus the
    tile's row sums, and the result block at the scales computed from that finished column. -/
theorem runLast (c : Dev nD) (i : grid0.Coords) (arg2 : Memref sig .tc .vmem S1x512x2048 .f32) (harg2 : arg2.IsWhole) (arg3 : Memref sig .tc .vmem S512x32 .f32) (harg3 : arg3.IsWhole) (arg4 : Memref sig .tc .vmem S512x32 .f32) (harg4 : arg4.IsWhole) (arg5 : Memref sig .tc .vmem S1x512x1 .f32) (harg5 : arg5.IsWhole) (arg6 : Memref sig .tc .vmem S512x1 .f32) (harg6 : arg6.IsWhole)
    (hc0 : ¬condReset i) (hc1 : condLast i)
    (x0 : Vec F S1x512x2048 .f32) (w1 w2 : Vec F S512x32 .f32) (xs : Vec F S512x1 .f32) (E : Set ℕ) (K : PUnit → sProp 𝕄) :
    iprop(owns (c : Thread nD τ) arg2 fullShare x0 ∗ owns (c : Thread nD τ) arg3 fullShare w1 ∗ owns (c : Thread nD τ) arg4 fullShare w2
        ∗ (∃ d, owns (c : Thread nD τ) arg5 fullShare d) ∗ owns (c : Thread nD τ) arg6 fullShare xs
        ∗ (iprop(owns (c : Thread nD τ) arg2 fullShare x0 ∗ owns (c : Thread nD τ) arg3 fullShare w1 ∗ owns (c : Thread nD τ) arg4 fullShare w2
            ∗ owns (c : Thread nD τ) arg5 fullShare (k0_pay3 (k0_pay2 xs x0) w1 w2) ∗ owns (c : Thread nD τ) arg6 fullShare (k0_pay2 xs x0)) -∗ K ⟨⟩))
      ⊢ wp frame (wpE (defs₀ (F := F)) Variants.none c none) E (cc0__kernel_body i arg2 harg2 arg3 harg3 arg4 harg4 arg5 harg5 arg6 harg6) K := by
  simp only [cc0__kernel_body_eq_skeleton]; unfold cc0__kernel_body_skel
  unfold owns
  iintro ⟨⟨%f0, %hf0, H0⟩, ⟨%f1, %hf1, H1⟩, ⟨%f2, %hf2, H2⟩, ⟨%d5, %f5, -, H5⟩, ⟨%f6, %hf6, H6⟩, Hk⟩
  obtain rfl := harg2.eq_unread hf0; obtain rfl := harg3.eq_unread hf1; obtain rfl := harg4.eq_unread hf2; obtain rfl := harg6.eq_unread hf6
  sl_exec (disch := first | exact hc0 | exact hc1)
  sl_step
  iapply Hk
  have hz2 : (![0, 0] : Fin 2 → Nat) = fun _ => 0 := by funext a; fin_cases a <;> rfl
  have hz3 : (![0, 0, 0] : Fin 3 → Nat) = fun _ => 0 := by funext a; fin_cases a <;> rfl
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    sl_unfold_words
    rw [View.read_writes_eq_canon _ _ _ (fun y => ⟨_, List.mem_cons_self, View.mem_set_unit_zero hz3 Facts₀.inb_S1x512x1_S1x512x1_0_0_0 y⟩)]
    rw [View.canon_unit_zero hz3]
    first
      | rw [View.readCov_unit_zero _ hz2]
      | skip
    simp only [View.readAt_eq_ld, harg2.read_unread, harg3.read_unread, harg4.read_unread, harg6.read_unread,
      View.ld_unit_zero (S := S1x512x2048) hz3, View.ld_unit_zero (S := S512x32) hz2, View.ld_unit_zero (S := S512x1) hz2]
  iexists _; isplitr
  swap; · iexact H6
  ipureintro
  sl_unfold_words
  rw [View.read_writes_eq_canon _ _ _ (fun y => ⟨_, List.mem_cons_self, View.mem_set_unit_zero hz2 Facts₀.inb_S512x1_S512x1_0_0 y⟩)]
  rw [View.canon_unit_zero hz2]
  simp only [View.readAt_eq_ld, harg2.read_unread, harg6.read_unread,
    View.ld_unit_zero (S := S1x512x2048) hz3, View.ld_unit_zero (S := S512x1) hz2]

end Cert.ReferenceIdeal.Acc

end
-- ==== Proof.AccData.lean ====
/-
  What the accumulate-and-finish region holds point by point, and that the printed body keeps to it.

  Point t of the 64 is (batch element t / 2, half t % 2). After an even point the scratch column is
  zeros + row sums of the first tile; after the odd point that follows it is that column + row sums of the second
  tile, and the result block is the scales of this finished column. The result window is idle at even points (nothing
  is stored into it and it is not written back there) and written back after every odd point.
-/
import proofs.«161758_g2000407024704625_pallasbulk_269_21_alg».proof.Proof.AccBody
import proofs.«161758_g2000407024704625_pallasbulk_269_21_alg».proof.Proof.Gen.ReferenceIdeal.Launch
import proofs.«161758_g2000407024704625_pallasbulk_269_21_alg».proof.Proof.Gen.ReferenceIdeal.Skeleton
import proofs.«161758_g2000407024704625_pallasbulk_269_21_alg».proof.Proof.Gen.ReferenceIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.ReferenceIdeal.Acc

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions and the result window's idle points, decided over the grid -/

theorem hcondReset : ∀ t : Fin cfg0.N, condReset (grid0.coords t) ↔ t.val % 2 = 0 :=
  (by decide +kernel : ∀ t : Fin grid0.N, condReset (grid0.coords t) ↔ t.val % 2 = 0)
theorem hcondLast : ∀ t : Fin cfg0.N, condLast (grid0.coords t) ↔ t.val % 2 = 1 :=
  (by decide +kernel : ∀ t : Fin grid0.N, condLast (grid0.coords t) ↔ t.val % 2 = 1)

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- At a first half nothing is stored into the result block, and it is not written back. -/
theorem idle3_even : ∀ t : Fin cfg0.N, t.val % 2 = 0 → cfg0.idle 3 (grid0.coords t) = true := by decide +kernel
theorem noFlush3_even : ∀ t : Fin cfg0.N, t.val % 2 = 0 → (cfg0.win 3).flush t = false := by decide +kernel
/-- At a last half it is stored. -/
theorem live3_odd : ∀ t : Fin cfg0.N, t.val % 2 = 1 → cfg0.idle 3 (grid0.coords t) = false := by decide +kernel

section Data

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where it is not fetched the
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The running column of sums -/

/-- The scratch column after point n: zeros + the first tile's row sums after an even point; after an odd point
    that column (of the point before) + the second tile's row sums. -/
def accAfter (c : Dev nD) (n : ℕ) (hn : n < cfg0.N) : Vec F S512x1 .f32 :=
  if n % 2 = 0 then k0_pay2 (k0_pay1 (F := F)) (iblk0 V c 0 ⟨n, hn⟩)
  else k0_pay2 (k0_pay2 (k0_pay1 (F := F)) (iblk0 V c 0 ⟨n - 1, Nat.lt_of_le_of_lt (Nat.sub_le _ _) hn⟩)) (iblk0 V c 0 ⟨n, hn⟩)

theorem accAfter_even (c : Dev nD) (n : ℕ) (hn : n < cfg0.N) (h : n % 2 = 0) :
    accAfter V c n hn = k0_pay2 (k0_pay1 (F := F)) (iblk0 V c 0 ⟨n, hn⟩) := by
  unfold accAfter; rw [if_pos h]
theorem accAfter_odd (c : Dev nD) (n : ℕ) (hn : n < cfg0.N) (h : ¬ n % 2 = 0) :
    accAfter V c n hn
      = k0_pay2 (k0_pay2 (k0_pay1 (F := F)) (iblk0 V c 0 ⟨n - 1, Nat.lt_of_le_of_lt (Nat.sub_le _ _) hn⟩)) (iblk0 V c 0 ⟨n, hn⟩) := by
  unfold accAfter; rw [if_neg h]

/-! ## The region's invariant -/

/-- The scratch column as a memref. -/
abbrev scM : Memref sig .tc .vmem S512x1 .f32 := Memref.whole cc0_scratch0

/-- The core's other scoped buffers that this region stages nothing in (the other region's staging buffers), each at
    some contents: carried through every point unopened. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- What the region is handed: the scratch at some contents, the other scoped buffers, the generator register. -/
theorem PhiA0_eq (c : Dev nD) :
    (Pipeline.ΦA spec0 c : sProp 𝕄)
      = iprop(((∃ d, owns (c : Thread nD τ) scM fullShare d) ∗ others (F := F) c) ∗ (∃ r, prngReg c r)) := by
  unfold Pipeline.ΦA others; rw [scopedRest0_eq]; simp only [scM, owns_whole]; rfl

/-- Before point n: at the start what the region is handed; afterwards the scratch at the column the point before left. -/
def PhiS (c : Dev nD) : (n : ℕ) → n ≤ cfg0.N → sProp 𝕄
  | 0, _ => Pipeline.ΦA spec0 c
  | n + 1, hn => iprop((owns (c : Thread nD τ) scM fullShare (accAfter V c n hn) ∗ others (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) scM fullShare (accAfter V c n hn) ∗ others (F := F) c) ∗ (∃ r, prngReg c r)) := rfl
theorem PhiS_pos (c : Dev nD) (n : ℕ) (h : n ≤ cfg0.N) (hz : n ≠ 0) :
    PhiS V c n h = iprop((owns (c : Thread nD τ) scM fullShare (accAfter V c (n - 1) (by omega)) ∗ others (F := F) c) ∗ (∃ r, prngReg c r)) := by
  cases n with
  | zero => exact absurd rfl hz
  | succ n => rfl

/-! ## The proof data -/

/-- The region's arrays as it finds them; after the body each input's buffer at its block, the result block at the
    scales of the running column (read only after odd points); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (accAfter V c t.val t.isLt) (iblk0 V c 1 t) (iblk0 V c 2 t)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (accAfter V c t.val t.isLt) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point. At an even point the scratch is handed over at whatever it holds (the column of the point
    before, or anything at the very first point) and comes back at zeros + row sums, the result block untouched; at an
    odd point it is handed over at the even point's column and comes back with the second tile's sums added, the result
    block at the scales of that column. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [live0 t], after0_0]
  rw [show (dat0 V c).leavesExact 1 t = owns (c : Thread nD τ) (st0_1 t) fullShare ((dat0 V c).after 1 t) from by
    unfold Dat.leavesExact; rw [live1 t], after0_1]
  rw [show (dat0 V c).leavesExact 2 t = owns (c : Thread nD τ) (st0_2 t) fullShare ((dat0 V c).after 2 t) from by
    unfold Dat.leavesExact; rw [live2 t], after0_2]
  by_cases h0 : t.val % 2 = 0
  · have h1 : ¬ t.val % 2 = 1 := by omega
    rw [Dat.leavesExact_idle (dat0 V c) 3 t (idle3_even t h0) (noFlush3_even t h0)]
    rw [accAfter_even V c t.val t.isLt h0]
    by_cases hz : t.val = 0
    · rw [PhiS_castSucc V c t, PhiS_zero V c _ _ hz, PhiA0_eq]
      iintro ⟨⟨⟨HS, Hoth⟩, Hg⟩, Ho, ⟨%d0, H0⟩, ⟨%d1, H1⟩, ⟨%d2, H2⟩, ⟨%d3, H3⟩⟩
      iapply (runFirst c (grid0.coords t) _ _ _ _ _ _ _ _ _ _ ((hcondReset t).mpr h0) (fun h => h1 ((hcondLast t).mp h))
        (iblk0 V c 0 t) (iblk0 V c 1 t) (iblk0 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply (runFirst c (grid0.coords t) _ _ _ _ _ _ _ _ _ _ ((hcondReset t).mpr h0) (fun h => h1 ((hcondLast t).mp h))
        (iblk0 V c 0 t) (iblk0 V c 1 t) (iblk0 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3
  · have h1 : t.val % 2 = 1 := by omega
    have hz : t.val ≠ 0 := by omega
    rw [show (dat0 V c).leavesExact 3 t = owns (c : Thread nD τ) (st0_3 t) fullShare ((dat0 V c).after 3 t) from by
      unfold Dat.leavesExact; rw [live3_odd t h1], after0_3]
    rw [accAfter_odd V c t.val t.isLt h0]
    rw [PhiS_castSucc V c t, PhiS_pos V c _ _ hz, accAfter_even V c (t.val - 1) (by omega) (by omega)]
    iintro ⟨⟨⟨HS, Hoth⟩, Hg⟩, Ho, ⟨%d0, H0⟩, ⟨%d1, H1⟩, ⟨%d2, H2⟩, ⟨%d3, H3⟩⟩
    iapply (runLast c (grid0.coords t) _ _ _ _ _ _ _ _ _ _ (fun h => h0 ((hcondReset t).mp h)) ((hcondLast t).mpr h1)
      (iblk0 V c 0 t) (iblk0 V c 1 t) (iblk0 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    iexact H3

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the region is handed is the invariant before the first point, -/
theorem hin0 (c : Dev nD) : Pipeline.ΦA spec0 c ⊢ (dat0 V c).Φ 0 := by
  rw [show (dat0 V c).Φ 0 = PhiS V c 0 (Nat.zero_le _) from rfl, PhiS_zero V c 0 _ rfl]

/-- and after the last point the invariant gives it back: the scratch's named contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl,
    PhiS_pos V c _ _ hne, PhiA0_eq]
  iintro ⟨⟨HS, Hoth⟩, Hg⟩
  isplitl [HS Hoth]
  · isplitl [HS]; · iexists _; iexact HS
    iexact Hoth
  iexact Hg

end Data

end Cert.ReferenceIdeal.Acc

end
-- ==== Proof.ScaleBody.lean ====
/-
  The scaling region of the reference program, one grid point at a time.

  The region walks a 32 x 2 grid. At point (b, k) it is handed three staging buffers: a [1, 512, 2048] tile of the
  input (batch row b, lanes 2048 k .. 2048 k + 2047), the [1, 512, 1] column of per-channel scales of batch row b, and
  a [1, 512, 2048] buffer for the result tile. Its body reads the first two whole, multiplies every lane of channel c
  by that channel's scale, and overwrites the third whole. So what the result buffer holds afterwards is a function of
  the two input tiles alone (scaledTile below), and the two input buffers are left as found.

  The scale column's tile depends on b only, so the pipeline brings it in at the even points and leaves it in place at
  the odd ones; either way the buffer holds the tile that belongs to the point, because an input that is not brought
  in afresh has not changed its tile index since the point before.

  Everything is stated for arbitrary contents V of the core's buffers at the moment the region starts, and for any
  float interpretation F.
-/
import proofs.«161758_g2000407024704625_pallasbulk_269_21_alg».proof.Proof.Gen.ReferenceIdeal.Launch
import proofs.«161758_g2000407024704625_pallasbulk_269_21_alg».proof.Proof.Gen.ReferenceIdeal.Skeleton
import proofs.«161758_g2000407024704625_pallasbulk_269_21_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.ReferenceIdeal.Scale

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region starts
variable (V : (c : Dev nD) → (b : Ref sig .tc) → Buf (Elt F) ((c : Thread nD τ).loc b))

/-! ## The tiles -/

/-- The tile of window `w` that belongs to grid point `t`, cut out of the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input tile's buffer holds the point's tile at every point. Holds for any proof data that reads the array off
    `V` and says the body leaves this buffer as found. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The scale column's buffer holds the point's tile at every point — at the odd points too, where nothing is brought
    in: the tile index (b, 0, 0) is then the one of the point before, and the body left the buffer alone. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each buffer whole -/

abbrev rTile : Rect S1x512x2048 := Rect.unit (s := S1x512x2048) ![0, 0, 0] S1x512x2048.size inb_S1x512x2048_S1x512x2048_0_0_0
abbrev rCol : Rect S1x512x1 := Rect.unit (s := S1x512x1) ![0, 0, 0] S1x512x1.size inb_S1x512x1_S1x512x1_0_0_0

/-! ## What the body leaves in the result buffer -/

/-- The result buffer after the body: its one store, of the product of the two tiles read, laid over the whole buffer. -/
def scaledTile (x0 : Vec F S1x512x2048 .f32) (x1 : Vec F S1x512x1 .f32) : Vec F S1x512x2048 .f32 :=
  View.canon [⟨rTile, k1_pay1 (View.ld x0 rTile) (View.ld x1 rCol)⟩]

/-- The one store covers the buffer: its rectangle is the whole of it. -/
theorem cover_scaledTile (p0 : Vec F S1x512x2048 .f32) (y : S1x512x2048.Idx) :
    ∃ pc ∈ ([⟨rTile, p0⟩] : List (View.Piece (Elt F) S1x512x2048 .f32)), y ∈ pc.1.set :=
  View.cover_of_tiled [⟨rTile, p0⟩] S1x512x2048.size (by rfl) y

/-! ## The body's triple -/

set_option maxHeartbeats 1000000 in
/-- Run on whole buffers, the two inputs reading `x0` and `x1` and the result buffer holding anything, the body ends with
    the inputs as they were and the result buffer at `scaledTile x0 x1`. (The body also loads the result buffer before
    storing into it; the loaded value is not used.) -/
theorem sound_kernel1 (c : Dev nD) (E : Set ℕ) (i : grid1.Coords) (arg2 : Memref sig .tc .vmem S1x512x2048 .f32) (harg2 : arg2.IsWhole)
    (arg3 : Memref sig .tc .vmem S1x512x1 .f32) (harg3 : arg3.IsWhole) (arg4 : Memref sig .tc .vmem S1x512x2048 .f32) (harg4 : arg4.IsWhole)
    (x0 : Vec F S1x512x2048 .f32) (x1 : Vec F S1x512x1 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (scaledTile x0 x1)) -∗ K ⟨⟩))
      ⊢ wp frame (wpE (defs₀ (F := F)) Variants.none c none) E (cc1__scale_kernel i arg2 harg2 arg3 harg3 arg4 harg4) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_scaledTile _)

/-! ## The region's proof data -/

/-- The proof data of the scaling region on core `c`: the three arrays as the region finds them; after the body at
    point `t` the two input buffers at their tiles and the result buffer at `scaledTile` of those tiles; the invariant
    the one of a body that touches nothing but its windows' buffers; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => scaledTile (iblk1 V c 0 t) (iblk1 V c 1 t)
  Φ _ := Pipeline.ΦA spec1 c
  q _ := fullShare
  owed _ := 0

/-- The proof data's arrays are the contents the region starts from. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = scaledTile (iblk1 V c 0 t) (iblk1 V c 1 t) := by dsimp only [dat1]

/-- What the body finds in each input buffer: the point's tile. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the two input buffers hold their tiles, so the body's triple applies; the invariant and
    the core's debts pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region's proof data, at every point. -/
theorem body_obligation1 (c : Dev nD) : BodyObligation (dat1 (F := F) V c) (defs₀ (F := F)) Variants.none () Set.univ := fun t => by
  rw [bigSep_W1, bigSep_W1]
  exact sound_body1 V c t

end Cert.ReferenceIdeal.Scale

end
-- ==== Proof.RefRun.lean ====
/-
  The reference's run, from the launch to the return: a host stretch (a reshape and a transpose), the accumulate-and-finish
  region, the scaling region, a host stretch (the reshape back). Between two of these every buffer that outlives a region
  holds named contents: the launch memory, then each host stretch applied to it, then each region's arrays at what its
  write-backs leave. The last of these valuations is what the final memory holds, buffer by buffer; in particular every
  argument array is still what the launch found there.
-/
import proofs.«161758_g2000407024704625_pallasbulk_269_21_alg».proof.Proof.AccData
import proofs.«161758_g2000407024704625_pallasbulk_269_21_alg».proof.Proof.ScaleBody
import proofs.«161758_g2000407024704625_pallasbulk_269_21_alg».proof.Proof.Gen.ReferenceIdeal.Regions
import Idealize.ShloMosaic.Lib.Pipeline.RegionsLoop
import Idealize.ShloMosaic.Lib.Pipeline.FrameSuffix

set_option maxRecDepth 16384

noncomputable section

namespace Cert.ReferenceIdeal.Run

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => (s₀ m ρ).mem ((c : Dev nD), b)
/-- After the first host stretch: the accumulate region's entry. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- After the accumulate region: its arrays at what its write-backs leave, everything else as entered. This is the
    scaling region's entry. -/
def B2 (c : Dev nD) : Valuation τ sig (Elt F) :=
  Pipeline.withArrays spec0 c (B1 m ρ c) fun w => (Acc.dat0 (E1 m ρ) c).arrAt w cfg0.N
theorem B2_arr (c : Dev nD) (w : Fin cfg0.W) :
    B2 m ρ c (Proc.devRef .tc (Pipeline.arrRef spec0 w)) = (Acc.dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (Acc.dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the scaling region. -/
def B3 (c : Dev nD) : Valuation τ sig (Elt F) :=
  Pipeline.withArrays spec1 c (B2 m ρ c) fun w => (Scale.dat1 (E2 m ρ) c).arrAt w cfg1.N
theorem B3_arr (c : Dev nD) (w : Fin cfg1.W) :
    B3 m ρ c (Proc.devRef .tc (Pipeline.arrRef spec1 w)) = (Scale.dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (Scale.dat1 (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-- After the last host stretch: what the final memory holds. -/
abbrev B4 : Dev nD → Valuation τ sig (Elt F) := fun c => StableHlo.after hostOps2 (B3 m ρ c)

/-! ## No segment writes an argument -/

theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := StableHlo.after_of_writes_sub hostOps2 _ hostOps2_writes (r := main_arg0) (by decide)
    _ = B2 m ρ c (Proc.devRef .tc main_arg0) := B3_of_ne m ρ c main_arg0 (by decide)
    _ = B1 m ρ c (Proc.devRef .tc main_arg0) := B2_of_ne m ρ c main_arg0 (by decide)
    _ = B0 m ρ c (Proc.devRef .tc main_arg0) := StableHlo.after_of_writes_sub hostOps0 _ hostOps0_writes (r := main_arg0) (by decide)
    _ = m ((c : Thread nD τ).loc main_arg0) := rfl
theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := StableHlo.after_of_writes_sub hostOps2 _ hostOps2_writes (r := main_arg1) (by decide)
    _ = B2 m ρ c (Proc.devRef .tc main_arg1) := B3_of_ne m ρ c main_arg1 (by decide)
    _ = B1 m ρ c (Proc.devRef .tc main_arg1) := B2_of_ne m ρ c main_arg1 (by decide)
    _ = B0 m ρ c (Proc.devRef .tc main_arg1) := StableHlo.after_of_writes_sub hostOps0 _ hostOps0_writes (r := main_arg1) (by decide)
    _ = m ((c : Thread nD τ).loc main_arg1) := rfl
/-- The second weight is an input window of the accumulate region: it reads it and leaves it as entered. -/
theorem B4_main_arg2 (c : Dev nD) : B4 m ρ c (Proc.devRef .tc main_arg2) = m ((c : Thread nD τ).loc main_arg2) :=
  calc B4 m ρ c (Proc.devRef .tc main_arg2)
    _ = B3 m ρ c (Proc.devRef .tc main_arg2) := StableHlo.after_of_writes_sub hostOps2 _ hostOps2_writes (r := main_arg2) (by decide)
    _ = B2 m ρ c (Proc.devRef .tc main_arg2) := B3_of_ne m ρ c main_arg2 (by decide)
    _ = B1 m ρ c (Proc.devRef .tc main_arg2) := (B2_arr m ρ c 2).trans (((Acc.dat0 (E1 m ρ) c).arrAt_in 2 rfl _).trans (Acc.A_eq0 (E1 m ρ) c 2))
    _ = B0 m ρ c (Proc.devRef .tc main_arg2) := StableHlo.after_of_writes_sub hostOps0 _ hostOps0_writes (r := main_arg2) (by decide)
    _ = m ((c : Thread nD τ).loc main_arg2) := rfl

/-! ## The proof data family and the thread state -/

/-- Each region's proof data at its entry contents. -/
def pdats : (p : Fin 2) → (c : Dev nD) → Dat τ (Elt F) Unit ℕ (UR sig nD τ) ℕ (Pipeline.pin (pcfgs (F := F)) adm p) c
  | ⟨0, _⟩ => fun c => Acc.dat0 (E1 m ρ) c
  | ⟨1, _⟩ => fun c => Scale.dat1 (E2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B4 m ρ c) ∗ ∃ r, prngReg c r)

/-! ## The regions as segments -/

set_option backward.isDefEq.respectTransparency.types false in
/-- The accumulate region: entered with every buffer at B1, left at B2. Its arrays are split out of the buffers and put
    back at what the write-backs left; the scratch and the generator register go into its invariant and come back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Acc.body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ Rr c)
  post c := iprop(StableHlo.held (c : Thread nD τ) (Pipeline.ucRefs τ sig) (B2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ (Pipeline.ΦA spec0 c : sProp 𝕄) from by
      unfold Pipeline.ΦA
      iintro ⟨Hp, -, Hr⟩
      isplitl [Hr]; · iexact Hr
      iexact Hp).trans (Acc.hin0 (E1 m ρ) c)
  hout c := by
    rw [Pipeline.ownSems0_none]
    exact (Acc.hout0 (E1 m ρ) c).trans (show (Pipeline.ΦA spec0 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scaling region: entered with every buffer at B2, left at B3; it keeps nothing of its own between points. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Scale.body_obligation1 (E2 m ρ) c).loose
  hwaits := Pipeline.hwaits_of_owed_zero _ _ _ _ L lv 1 fun _ _ => rfl
  pre c := iprop(StableHlo.held (c : Thread nD τ) (Pipeline.ucRefs τ sig) (B2 m ρ c) ∗ Rr c)
  post c := iprop(StableHlo.held (c : Thread nD τ) (Pipeline.ucRefs τ sig) (B3 m ρ c) ∗ Rr c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsR : List (Pipeline.Seg (pcfgs (F := F)) adm (pdats m ρ) () defs₀ 𝒱₀ L lv) :=
  [ .host (hseg hostOps0 hostOps0_sub hostOps0_fresh (B0 m ρ)),
    .region (reg0 m ρ),
    .region (reg1 m ρ),
    .host (hseg hostOps2 hostOps2_sub hostOps2_fresh (B3 m ρ)) ]
theorem main_run (c : Dev nD) : main (F := F) c = Pipeline.Seg.run (segsR m ρ) := (main_chain c).trans (by chain_rfl)

set_option backward.isDefEq.respectTransparency.types false in
/-- From any memory with zero counters every weakly fair execution of the reference terminates, nothing faulting, and
    the final memory holds, at every buffer that outlives the regions, the last valuation's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ 𝒱₀ L lv m ρ main (segsR m ρ)
    (fun c Q => by rw [main_run m ρ c])
    (by simp only [segsR, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rr c)) (Tₙ := Tₙ m ρ)
    (hch := ⟨fun _ => .rfl, fun _ => .rfl, fun _ => .rfl, fun _ => .rfl, fun c =>
      show iprop(StableHlo.held (c : Thread nD τ) (Pipeline.ucRefs τ sig) (B4 m ρ c) ∗ Rr c)
          ⊢ (iprop(Tₙ m ρ c ∗ ∃ W, owes (c : Thread nD τ) (0 : CellTallies nD τ sig Unit) W) : sProp 𝕄) from by
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

/-- The same run read at the result and the three arguments: the result holds the last valuation's contents, the
    arguments what the launch found. -/
theorem run : θ_run defs (onTc (τ := τ) (main (F := F))) ⟨m, fun _ => 0, ρ⟩ (fun r => ∀ c : Dev nD,
      r.2.mem ((c.tc : Thread nD τ).loc main_v4) = B4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v4 (by decide)),
     (h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c)⟩) (run_all m ρ)

end Cert.ReferenceIdeal.Run

end
-- ==== Proof.ScaleValue.lean ====
/-
  The scaling region of the reference program, as one function of the arrays it starts from.

  The region's result array has shape [32, 512, 4096]. Grid point t = 2 b + k writes back the tile of batch row b,
  lanes 2048 k .. 2048 k + 2047, and what it writes is the product, entry by entry, of the input's tile at the same
  place and the scale column of batch row b repeated along the lanes. Since each written tile is the matching tile of
  the single array
      i  |->  x(i) * s(i_0, i_1, 0),
  and the 64 tiles fill the result array (the entry (b, c, l) lies in the tile of point 2 b + l / 2048), the result
  array ends holding exactly that array. The argument only moves entries to their places and reads one product entry
  by entry; no law of arithmetic is used, so nothing is asked of the entries (they may be infinite).
-/
import proofs.«161758_g2000407024704625_pallasbulk_269_21_alg».proof.Proof.ScaleBody
import proofs.«161758_g2000407024704625_pallasbulk_269_21_alg».proof.Proof.LibLayout
import Idealize.ShloMosaic.Lib.Pipeline.Value
import Idealize.ShloMosaic.Lib.ValueIdx

noncomputable section

namespace Cert.ReferenceIdeal.Scale

open Cert.ReferenceIdeal.Gen
open Idealize.ShloMosaic Idealize.ShloMosaic.TcCoe Idealize.ShloMosaic.ValueIdx
open Idealize.SL.Sem
open Idealize.ShloMosaic.Pipeline (Dat)

/-! ## The body's product at an entry -/

/-- The tile the body stores, at channel `p` and lane `l`: the input tile's entry there times the scale column's entry
    of channel `p`. The body drops the tiles' leading axis of extent one, repeats the column along the lanes,
    multiplies, and puts the leading axis back; none of these moves an entry off its channel. -/
theorem scalePayload_apply (v0 : FVec Ideal S1x512x2048 .f32) (v2 : FVec Ideal S1x512x1 .f32) (u : Fin 1) (p : Fin 512) (l : Fin 2048) :
    k1_pay1 (F := Ideal) v0 v2 (ix3 u p l) = v0 (ix3 (0 : Fin 1) p l) * v2 (ix3 (0 : Fin 1) p (0 : Fin 1)) := by
  unfold k1_pay1
  refine (Cert.LibLayout.shapeCast_dc_abc_apply _ _ u p l p (by have := u.isLt; omega)).trans ?_
  refine (mulf_apply _ _ _).trans ?_
  refine congrArg₂ (· * ·) ?_ ?_
  · exact Cert.LibLayout.shapeCast_abc_dc_apply v0 _ p l (0 : Fin 1) p (by simp)
  · refine (Cert.LibLayout.broadcastTo_a1_ab_apply _ _ p l).trans ?_
    exact Cert.LibLayout.shapeCast_abc_dc_apply v2 _ p (0 : Fin 1) (0 : Fin 1) p (by simp)

/-! ## The result as one array -/

/-- The input scaled channel by channel: entry (b, c, l) of `x` times entry (b, c, 0) of the scale column `s`. -/
def scaled (x : FVec Ideal S32x512x4096 .f32) (s : FVec Ideal S32x512x1 .f32) : FVec Ideal S32x512x4096 .f32 :=
  fun i => x i * s (ix3 (i 0) (i 1) (0 : Fin 1))

/-- The scaled array at an entry. -/
theorem scaled_apply (x : FVec Ideal S32x512x4096 .f32) (s : FVec Ideal S32x512x1 .f32) (i : S32x512x4096.Idx) :
    scaled x s i = x i * s (ix3 (i 0) (i 1) (0 : Fin 1)) := rfl

/-- An entry of the array times an entry of the column, with the two places as arguments. -/
def entryProd (x : FVec Ideal S32x512x4096 .f32) (s : FVec Ideal S32x512x1 .f32) (i : S32x512x4096.Idx) (k : S32x512x1.Idx) :
    Ideal .f32 := x i * s k

variable (V : (c : Dev nD) → (b : Ref sig .tc) → Buf (Elt Ideal) ((c : Thread nD τ).loc b))

theorem zero3 : (![0, 0, 0] : Fin 3 → Nat) = fun _ => 0 := funext fun a => by fin_cases a <;> rfl

/-- Where the three windows' tiles sit at point `t`, in units of tiles: the input's and the result's at
    (t / 2, 0, t % 2), the scale column's at (t / 2, 0, 0). Checked at each of the 64 points. -/
theorem tile_index : ∀ t : Fin cfg1.N,
    win1_0.index t (0 : Fin 3) = t.val / 2 ∧ win1_0.index t (1 : Fin 3) = 0 ∧ win1_0.index t (2 : Fin 3) = t.val % 2
    ∧ win1_1.index t (0 : Fin 3) = t.val / 2 ∧ win1_1.index t (1 : Fin 3) = 0 ∧ win1_1.index t (2 : Fin 3) = 0
    ∧ win1_2.index t (0 : Fin 3) = t.val / 2 ∧ win1_2.index t (1 : Fin 3) = 0 ∧ win1_2.index t (2 : Fin 3) = t.val % 2 :=
  (by decide +kernel : ∀ t : Fin grid1.N, _)

/-- What point `t` writes back is the tile, at `t`'s place, of the scaled array. -/
theorem flushed_eq (c : Dev nD) (t : Fin cfg1.N) :
    (dat1 (F := Ideal) V c).flushed 2 t
      = ((cfg1.win 2).blk t).view.read (Elt Ideal) (scaled (V c main_v0) (V c main_v2)) := by
  show (cfg1.win 2).cut (grid1.coords t) ((dat1 V c).after 2 t) = _
  rw [after1_2]
  unfold scaledTile
  rw [View.canon_unit_zero zero3]
  simp only [View.ld_unit_zero (S := S1x512x2048) zero3, View.ld_unit_zero (S := S1x512x1) zero3]
  obtain ⟨e00, e01, e02, e10, e11, e12, e20, e21, e22⟩ := tile_index t
  funext j
  obtain ⟨u, p, l, rfl⟩ : ∃ (u : Fin 1) (p : Fin 512) (l : Fin 2048), j = ix3 u p l := ⟨j 0, j 1, j 2, eq_ix3 j⟩
  refine (scalePayload_apply (iblk1 V c 0 t) (iblk1 V c 1 t) u p l).trans ?_
  have hu : u.val = 0 := by have := u.isLt; omega
  show entryProd (V c main_v0) (V c main_v2) (((cfg1.win 0).blk t).view.emb (ix3 (0 : Fin 1) p l))
        (((cfg1.win 1).blk t).view.emb (ix3 (0 : Fin 1) p (0 : Fin 1)))
      = entryProd (V c main_v0) (V c main_v2) (((cfg1.win 2).blk t).view.emb (ix3 u p l))
        (ix3 ((((cfg1.win 2).blk t).view.emb (ix3 u p l)) 0) ((((cfg1.win 2).blk t).view.emb (ix3 u p l)) 1) (0 : Fin 1))
  have h0 : ((cfg1.win 0).blk t).view.emb (ix3 (0 : Fin 1) p l) = ((cfg1.win 2).blk t).view.emb (ix3 u p l) := by
    funext a; apply Fin.ext
    match a with
    | ⟨0, _⟩ => show win1_0.index t (0 : Fin 3) * 1 + 1 * 0 = win1_2.index t (0 : Fin 3) * 1 + 1 * u.val; omega
    | ⟨1, _⟩ => show win1_0.index t (1 : Fin 3) * 512 + 1 * p.val = win1_2.index t (1 : Fin 3) * 512 + 1 * p.val; omega
    | ⟨2, _⟩ => show win1_0.index t (2 : Fin 3) * 2048 + 1 * l.val = win1_2.index t (2 : Fin 3) * 2048 + 1 * l.val; omega
  have h1 : ((cfg1.win 1).blk t).view.emb (ix3 (0 : Fin 1) p (0 : Fin 1))
      = ix3 ((((cfg1.win 2).blk t).view.emb (ix3 u p l)) 0) ((((cfg1.win 2).blk t).view.emb (ix3 u p l)) 1) (0 : Fin 1) := by
    funext a; apply Fin.ext
    match a with
    | ⟨0, _⟩ => show win1_1.index t (0 : Fin 3) * 1 + 1 * 0 = win1_2.index t (0 : Fin 3) * 1 + 1 * u.val; omega
    | ⟨1, _⟩ => show win1_1.index t (1 : Fin 3) * 512 + 1 * p.val = win1_2.index t (1 : Fin 3) * 512 + 1 * p.val; omega
    | ⟨2, _⟩ => show win1_1.index t (2 : Fin 3) * 1 + 1 * 0 = 0; omega
  exact congrArg₂ (entryProd (V c main_v0) (V c main_v2)) h0 h1

/-- An entry of the result array lies in point `t`'s tile iff each of its coordinates lies in the tile's range. -/
theorem mem_tile (t : Fin cfg1.N) (i : S32x512x4096.Idx) :
    i ∈ ((cfg1.win 2).blk t).view.set ↔ ∀ a : Fin 3, win1_2.index t a * S1x512x2048.size a ≤ (i a).val
      ∧ (i a).val < win1_2.index t a * S1x512x2048.size a + S1x512x2048.size a := by
  show i ∈ ((View.whole main_v3).slice (win1_2.rect t)).set ↔ _
  rw [View.set_slice_whole, Rect.mem_set_unit]
  exact Iff.rfl

/-- Every entry (b, c, l) of the result array lies in the tile of point 2 b + l / 2048, which is written back. -/
theorem tiles_cover (i : S32x512x4096.Idx) :
    ∃ t : Fin cfg1.N, (cfg1.win 2).flush t = true ∧ i ∈ ((cfg1.win 2).blk t).view.set := by
  have hN : cfg1.N = 64 := N_1
  have hi0 : (i 0).val < 32 := (i 0).isLt
  have hi1 : (i 1).val < 512 := (i 1).isLt
  have hi2 : (i 2).val < 4096 := (i 2).isLt
  refine ⟨⟨2 * (i 0).val + (i 2).val / 2048, by omega⟩, flush1_2 _, ?_⟩
  rw [mem_tile]
  obtain ⟨-, -, -, -, -, -, e20, e21, e22⟩ := tile_index ⟨2 * (i 0).val + (i 2).val / 2048, by omega⟩
  intro a
  match a with
  | ⟨0, _⟩ =>
    show win1_2.index _ (0 : Fin 3) * 1 ≤ (i 0).val ∧ (i 0).val < win1_2.index _ (0 : Fin 3) * 1 + 1
    rw [e20]; show (2 * (i 0).val + (i 2).val / 2048) / 2 * 1 ≤ (i 0).val ∧ (i 0).val < (2 * (i 0).val + (i 2).val / 2048) / 2 * 1 + 1; omega
  | ⟨1, _⟩ =>
    show win1_2.index _ (1 : Fin 3) * 512 ≤ (i 1).val ∧ (i 1).val < win1_2.index _ (1 : Fin 3) * 512 + 512
    rw [e21]; omega
  | ⟨2, _⟩ =>
    show win1_2.index _ (2 : Fin 3) * 2048 ≤ (i 2).val ∧ (i 2).val < win1_2.index _ (2 : Fin 3) * 2048 + 2048
    rw [e22]; show (2 * (i 0).val + (i 2).val / 2048) % 2 * 2048 ≤ (i 2).val ∧ (i 2).val < (2 * (i 0).val + (i 2).val / 2048) % 2 * 2048 + 2048; omega

/-- THE RESULT ARRAY after the region: the input array scaled, channel by channel, by the scale column, both as the
    region found them. -/
theorem final1 (c : Dev nD) :
    (dat1 (F := Ideal) V c).arrAt 2 cfg1.N = scaled (V c main_v0) (V c main_v2) :=
  (dat1 (F := Ideal) V c).arrAt_eq_of_cover 2 (scaled (V c main_v0) (V c main_v2)) (fun t _ => flushed_eq V c t) tiles_cover

end Cert.ReferenceIdeal.Scale

end
-- ==== Proof.AccPayload.lean ====
/-
  The arithmetic of the accumulate-and-finish region, read entry by entry.

  The region keeps a column of 512 running sums, one per channel. A first half-step overwrites the column with zeros and
  then adds to each channel the sum of the 2048 lanes of that channel in the tile at hand; a second half-step adds the
  lane sums of the next tile. So after the two half-steps channel p holds
      (0 + sum_l first(0, p, l)) + sum_l second(0, p, l),
  written with the additions in the order the region makes them. The finishing step passes the column and the two
  weight tiles through the squeeze-and-excite chain and stores the resulting column with a leading axis of extent one
  put in front; the chain is the specification's own function of the column and the weights, so it is carried as one
  name and never opened.
-/
import proofs.«161758_g2000407024704625_pallasbulk_269_21_alg».proof.Proof.Gen.ReferenceIdeal.Skeleton
import proofs.«161758_g2000407024704625_pallasbulk_269_21_alg».proof.Proof.Spec
import proofs.«161758_g2000407024704625_pallasbulk_269_21_alg».proof.Proof.LibLayout
import Idealize.ShloMosaic.PureOps.Ideal.Laws
import Idealize.ShloMosaic.Lib.Pipeline.Value
import Idealize.ShloMosaic.Lib.ValueIdx

noncomputable section

namespace Cert.ReferenceIdeal.Acc

open Cert.ReferenceIdeal Cert.ReferenceIdeal.Gen
open Idealize.ShloMosaic Idealize.ShloMosaic.ValueIdx

/-- The column the first half-step starts from: zero in every channel. -/
theorem zeroCol_apply (p : Fin 512) (u : Fin 1) :
    k0_pay1 (F := Ideal) (ix2 p u) = Ideal.ofBits .f32 0x00000000#32 := by
  unfold k0_pay1
  refine (congrFun (shapeCast_self _ _) _).trans ?_
  rfl

/-- One half-step: channel `p` of the column gains the sum of the 2048 lanes of channel `p` of the tile. -/
theorem addLaneSums_apply (a : FVec Ideal S512x1 .f32) (xb : FVec Ideal S1x512x2048 .f32) (p : Fin 512) (u : Fin 1) :
    k0_pay2 (F := Ideal) a xb (ix2 p u) = a (ix2 p u) + ∑ l : Fin 2048, xb (ix3 (0 : Fin 1) p l) := by
  unfold k0_pay2
  refine (congrFun (shapeCast_self _ _) _).trans ?_
  refine (addf_apply _ _ _).trans ?_
  refine congrArg (a (ix2 p u) + ·) ?_
  refine (Cert.LibLayout.shapeCast_a_a1_apply _ _ p u).trans ?_
  refine (Ideal.multiReduction_add_single _ 0x00000000#32 reduces_S512x2048_S512 (.inl rfl) rfl (ix1 p)).trans ?_
  show ∑ l : Fin 2048, _ = _
  refine Finset.sum_congr rfl fun l _ => ?_
  have e : (reduces_S512x2048_S512).lift (ix1 p) l = ix2 p l := funext fun d => Fin.ext (by
    match d with
    | ⟨0, _⟩ => rfl
    | ⟨1, _⟩ => rfl)
  rw [e]
  exact Cert.LibLayout.shapeCast_abc_dc_apply xb _ p l (0 : Fin 1) p (by simp)

/-- The two half-steps one after the other, from zeros. -/
theorem twoHalves_apply (xa xb : FVec Ideal S1x512x2048 .f32) (p : Fin 512) (u : Fin 1) :
    k0_pay2 (F := Ideal) (k0_pay2 (F := Ideal) (k0_pay1 (F := Ideal)) xa) xb (ix2 p u)
      = (Ideal.ofBits .f32 0x00000000#32 + ∑ l : Fin 2048, xa (ix3 (0 : Fin 1) p l))
        + ∑ l : Fin 2048, xb (ix3 (0 : Fin 1) p l) := by
  refine (addLaneSums_apply _ xb p u).trans ?_
  refine congrArg (· + ∑ l : Fin 2048, xb (ix3 (0 : Fin 1) p l)) ?_
  refine (addLaneSums_apply _ xa p u).trans ?_
  exact congrArg (· + ∑ l : Fin 2048, xa (ix3 (0 : Fin 1) p l)) (zeroCol_apply p u)

/-- The finishing step is the specification's chain applied to the column and the weight tiles, stored with a leading
    axis of extent one: the body's operations are the chain's, one for one. -/
theorem finish_eq (a : FVec Ideal S512x1 .f32) (w1 w2 : FVec Ideal S512x32 .f32) :
    k0_pay3 (F := Ideal) a w1 w2 = shapeCast S1x512x1 (Cert.SE.excite a w1 w2) shapeCasts_S512x1_S1x512x1 := rfl

/-- So its entry of channel `p` is the chain's entry of channel `p`. -/
theorem finish_apply (a : FVec Ideal S512x1 .f32) (w1 w2 : FVec Ideal S512x32 .f32) (u : Fin 1) (p : Fin 512) (v : Fin 1) :
    k0_pay3 (F := Ideal) a w1 w2 (ix3 u p v) = Cert.SE.excite a w1 w2 (ix2 p v) := by
  rw [finish_eq]
  exact Cert.LibLayout.shapeCast_dc_abc_apply _ _ u p v p (by have := u.isLt; omega)

end Cert.ReferenceIdeal.Acc

end
-- ==== Proof.AccValue.lean ====
/-
  The accumulate-and-finish region of the reference program, as one function of the arrays it starts from.

  The region's result array is the [32, 512, 1] array of scales, one column per batch row. Its tile for batch row b is
  written back once, after point 2 b + 1, the second of the row's two points. By then the running column has gone
  through both half-steps: channel p holds (0 + the sum of lanes 0 .. 2047 of the input's row (b, p)) + the sum of its
  lanes 2048 .. 4095, because the tile of point 2 b is the first half of the row and the tile of point 2 b + 1 the
  second. The two weight tiles are their whole arrays at every point. So the tile written back is the squeeze-and-excite
  chain applied to that column and the two weight arrays, which is the tile for batch row b of the single array scaleCol
  below; the 32 tiles fill the result array. Two columns are compared channel by channel BEFORE the chain is applied to
  them; the chain itself is never opened, and no law of arithmetic is used (the additions stay in the region's order).
-/
import proofs.«161758_g2000407024704625_pallasbulk_269_21_alg».proof.Proof.AccData
import proofs.«161758_g2000407024704625_pallasbulk_269_21_alg».proof.Proof.AccPayload
import proofs.«161758_g2000407024704625_pallasbulk_269_21_alg».proof.Proof.Spec
import proofs.«161758_g2000407024704625_pallasbulk_269_21_alg».proof.Proof.LibLayout
import Idealize.ShloMosaic.Lib.Pipeline.Value
import Idealize.ShloMosaic.Lib.ValueIdx

noncomputable section

namespace Cert.ReferenceIdeal.Acc

open Cert.ReferenceIdeal Cert.ReferenceIdeal.Gen
open Idealize.ShloMosaic Idealize.ShloMosaic.TcCoe Idealize.ShloMosaic.ValueIdx
open Idealize.SL.Sem
open Idealize.ShloMosaic.Pipeline (Dat)

/-! ## The result as one array -/

/-- Batch row `b`'s column of per-channel sums, each taken as the region takes it: zero, plus the first 2048 lanes,
    plus the last 2048 lanes. -/
def accSplit3 (x : FVec Ideal S32x512x4096 .f32) (b : Fin 32) : FVec Ideal Cert.SE.SCol .f32 :=
  fun j => (Ideal.ofBits .f32 0x00000000#32 + ∑ l : Fin 2048, x (ix3 b (j 0) ⟨l.val, by omega⟩))
    + ∑ l : Fin 2048, x (ix3 b (j 0) ⟨2048 + l.val, by omega⟩)

/-- The array of scales: entry (b, c, 0) is channel c of the chain applied to batch row b's column of sums. -/
def scaleCol (x : FVec Ideal S32x512x4096 .f32) (w1t w2 : FVec Ideal S512x32 .f32) : FVec Ideal S32x512x1 .f32 :=
  fun i => Cert.SE.excite (accSplit3 x (i 0)) w1t w2 (ix2 (i 1) (0 : Fin 1))

/-- An entry of the array of scales from a column and a channel named separately: what is to be shown of a column is
    that it is the batch row's column of sums, and of a channel that it is the entry's. -/
theorem scaleCol_of_eq (x : FVec Ideal S32x512x4096 .f32) (w1t w2 : FVec Ideal S512x32 .f32) (i : S32x512x1.Idx)
    (a : FVec Ideal Cert.SE.SCol .f32) (k : Cert.SE.SCol.Idx) (ha : a = accSplit3 x (i 0)) (hk : k = ix2 (i 1) (0 : Fin 1)) :
    Cert.SE.excite a w1t w2 k = scaleCol x w1t w2 i := by
  subst ha hk; rfl

variable (V : (c : Dev nD) → (b : Ref sig .tc) → Buf (Elt Ideal) ((c : Thread nD τ).loc b))

/-! ## Where the tiles sit -/

/-- In units of tiles, at point `t`: the input's tile at (t / 2, 0, t % 2), the two weight tiles at (0, 0), the result's
    at (t / 2, 0, 0). Checked at each of the 64 points. -/
theorem tile_index : ∀ t : Fin cfg0.N,
    win0_0.index t (0 : Fin 3) = t.val / 2 ∧ win0_0.index t (1 : Fin 3) = 0 ∧ win0_0.index t (2 : Fin 3) = t.val % 2
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 2 ∧ win0_3.index t (1 : Fin 3) = 0 ∧ win0_3.index t (2 : Fin 3) = 0 :=
  (by decide +kernel : ∀ t : Fin grid0.N, _)

/-- The input's tile at point `t`, entry (0, p, l), is the input array's entry (t / 2, p, 2048 (t % 2) + l). -/
theorem inputTile_apply (c : Dev nD) (t : Fin cfg0.N) (p : Fin 512) (l : Fin 2048) (i : S32x512x4096.Idx)
    (h0 : (i 0).val = t.val / 2) (h1 : (i 1).val = p.val) (h2 : (i 2).val = 2048 * (t.val % 2) + l.val) :
    (iblk0 V c 0 t : FVec Ideal S1x512x2048 .f32) (ix3 (0 : Fin 1) p l) = (V c main_v0 : FVec Ideal S32x512x4096 .f32) i := by
  obtain ⟨e00, e01, e02, -⟩ := tile_index t
  have h : ((cfg0.win 0).blk t).view.emb (ix3 (0 : Fin 1) p l) = i := by
    funext a; apply Fin.ext
    match a with
    | ⟨0, _⟩ => show win0_0.index t (0 : Fin 3) * 1 + 1 * 0 = (i 0).val; omega
    | ⟨1, _⟩ => show win0_0.index t (1 : Fin 3) * 512 + 1 * p.val = (i 1).val; omega
    | ⟨2, _⟩ => show win0_0.index t (2 : Fin 3) * 2048 + 1 * l.val = (i 2).val; omega
  show (V c main_v0 : FVec Ideal S32x512x4096 .f32) (((cfg0.win 0).blk t).view.emb (ix3 (0 : Fin 1) p l)) = _
  rw [h]

/-- Each weight tile is its whole array, at every point. -/
theorem weightTile1_eq (c : Dev nD) (t : Fin cfg0.N) :
    (iblk0 V c 1 t : FVec Ideal S512x32 .f32) = (V c main_v1 : FVec Ideal S512x32 .f32) := by
  obtain ⟨-, -, -, e10, e11, -⟩ := tile_index t
  funext y
  have h : ((cfg0.win 1).blk t).view.emb y = y := by
    funext a; apply Fin.ext
    match a with
    | ⟨0, _⟩ => show win0_1.index t (0 : Fin 2) * 512 + 1 * (y 0).val = (y 0).val; omega
    | ⟨1, _⟩ => show win0_1.index t (1 : Fin 2) * 32 + 1 * (y 1).val = (y 1).val; omega
  show (V c main_v1 : FVec Ideal S512x32 .f32) (((cfg0.win 1).blk t).view.emb y) = _
  rw [h]
theorem weightTile2_eq (c : Dev nD) (t : Fin cfg0.N) :
    (iblk0 V c 2 t : FVec Ideal S512x32 .f32) = (V c main_arg2 : FVec Ideal S512x32 .f32) := by
  obtain ⟨-, -, -, -, -, e20, e21, -⟩ := tile_index t
  funext y
  have h : ((cfg0.win 2).blk t).view.emb y = y := by
    funext a; apply Fin.ext
    match a with
    | ⟨0, _⟩ => show win0_2.index t (0 : Fin 2) * 512 + 1 * (y 0).val = (y 0).val; omega
    | ⟨1, _⟩ => show win0_2.index t (1 : Fin 2) * 32 + 1 * (y 1).val = (y 1).val; omega
  show (V c main_arg2 : FVec Ideal S512x32 .f32) (((cfg0.win 2).blk t).view.emb y) = _
  rw [h]

/-! ## What a second point writes back -/

/-- The running column after the second point `t` of a batch row is the row's column of sums: the tile of the point
    before is the first half of the row, the tile of `t` the second half. -/
theorem column_eq (c : Dev nD) (t : Fin cfg0.N) (hodd : t.val % 2 = 1) (b : Fin 32) (hb : b.val = t.val / 2) :
    k0_pay2 (F := Ideal) (k0_pay2 (F := Ideal) (k0_pay1 (F := Ideal))
        (iblk0 V c 0 ⟨t.val - 1, Nat.lt_of_le_of_lt (Nat.sub_le _ _) t.isLt⟩)) (iblk0 V c 0 t)
      = accSplit3 (V c main_v0) b := by
  funext j
  obtain ⟨p, u, rfl⟩ : ∃ (p : Fin 512) (u : Fin 1), j = ix2 p u := ⟨j 0, j 1, eq_ix2 j⟩
  refine (twoHalves_apply _ _ p u).trans ?_
  unfold accSplit3
  refine congrArg₂ (· + ·) (congrArg (Ideal.ofBits .f32 0x00000000#32 + ·) ?_) ?_
  · refine Finset.sum_congr rfl fun l _ => ?_
    refine inputTile_apply V c _ p l _ ?_ rfl ?_
    · show b.val = (t.val - 1) / 2; omega
    · show l.val = 2048 * ((t.val - 1) % 2) + l.val; omega
  · refine Finset.sum_congr rfl fun l _ => ?_
    refine inputTile_apply V c t p l _ ?_ rfl ?_
    · show b.val = t.val / 2; omega
    · show 2048 + l.val = 2048 * (t.val % 2) + l.val; omega

/-- What a point that writes back — the second point of a batch row — writes is the row's tile of the array of scales. -/
theorem flushed_eq (c : Dev nD) (t : Fin cfg0.N) (hf : (cfg0.win 3).flush t = true) :
    (dat0 (F := Ideal) V c).flushed 3 t
      = ((cfg0.win 3).blk t).view.read (Elt Ideal) (scaleCol (V c main_v0) (V c main_v1) (V c main_arg2)) := by
  have hodd : t.val % 2 = 1 := (flush0_3 t).mp hf
  obtain ⟨-, -, -, -, -, -, -, e30, e31, e32⟩ := tile_index t
  show (cfg0.win 3).cut (grid0.coords t) ((dat0 V c).after 3 t) = _
  rw [after0_3, accAfter_odd V c t.val t.isLt (by omega), weightTile1_eq V c t, weightTile2_eq V c t]
  funext j
  obtain ⟨u, p, v, rfl⟩ : ∃ (u : Fin 1) (p : Fin 512) (v : Fin 1), j = ix3 u p v := ⟨j 0, j 1, j 2, eq_ix3 j⟩
  refine (finish_apply _ _ _ u p v).trans ?_
  have hu : u.val = 0 := by have := u.isLt; omega
  have hv : v.val = 0 := by have := v.isLt; omega
  refine scaleCol_of_eq (V c main_v0) (V c main_v1) (V c main_arg2) (((cfg0.win 3).blk t).view.emb (ix3 u p v)) _ _ ?_ ?_
  · refine column_eq V c t hodd _ ?_
    show win0_3.index t (0 : Fin 3) * 1 + 1 * u.val = t.val / 2; omega
  · funext a; apply Fin.ext
    match a with
    | ⟨0, _⟩ => show p.val = win0_3.index t (1 : Fin 3) * 512 + 1 * p.val; omega
    | ⟨1, _⟩ => show v.val = 0; exact hv

/-! ## The tiles fill the array -/

/-- An entry of the result array lies in point `t`'s tile iff each of its coordinates lies in the tile's range. -/
theorem mem_tile (t : Fin cfg0.N) (i : S32x512x1.Idx) :
    i ∈ ((cfg0.win 3).blk t).view.set ↔ ∀ a : Fin 3, win0_3.index t a * S1x512x1.size a ≤ (i a).val
      ∧ (i a).val < win0_3.index t a * S1x512x1.size a + S1x512x1.size a := by
  show i ∈ ((View.whole main_v2).slice (win0_3.rect t)).set ↔ _
  rw [View.set_slice_whole, Rect.mem_set_unit]
  exact Iff.rfl

/-- Every entry (b, c, 0) lies in the tile of point 2 b + 1, which is written back. -/
theorem tiles_cover (i : S32x512x1.Idx) :
    ∃ t : Fin cfg0.N, (cfg0.win 3).flush t = true ∧ i ∈ ((cfg0.win 3).blk t).view.set := by
  have hN : cfg0.N = 64 := N_0
  have hi0 : (i 0).val < 32 := (i 0).isLt
  have hi1 : (i 1).val < 512 := (i 1).isLt
  have hi2 : (i 2).val < 1 := (i 2).isLt
  refine ⟨⟨2 * (i 0).val + 1, by omega⟩, (flush0_3 _).mpr (by show (2 * (i 0).val + 1) % 2 = 1; omega), ?_⟩
  rw [mem_tile]
  obtain ⟨-, -, -, -, -, -, -, e30, e31, e32⟩ := tile_index ⟨2 * (i 0).val + 1, by omega⟩
  intro a
  match a with
  | ⟨0, _⟩ =>
    show win0_3.index _ (0 : Fin 3) * 1 ≤ (i 0).val ∧ (i 0).val < win0_3.index _ (0 : Fin 3) * 1 + 1
    rw [e30]; show (2 * (i 0).val + 1) / 2 * 1 ≤ (i 0).val ∧ (i 0).val < (2 * (i 0).val + 1) / 2 * 1 + 1; omega
  | ⟨1, _⟩ =>
    show win0_3.index _ (1 : Fin 3) * 512 ≤ (i 1).val ∧ (i 1).val < win0_3.index _ (1 : Fin 3) * 512 + 512
    rw [e31]; omega
  | ⟨2, _⟩ =>
    show win0_3.index _ (2 : Fin 3) * 1 ≤ (i 2).val ∧ (i 2).val < win0_3.index _ (2 : Fin 3) * 1 + 1
    rw [e32]; omega

/-- THE RESULT ARRAY after the region: the array of scales of the input and the two weight arrays as the region found
    them. -/
theorem final0 (c : Dev nD) :
    (dat0 (F := Ideal) V c).arrAt 3 cfg0.N = scaleCol (V c main_v0) (V c main_v1) (V c main_arg2) :=
  (dat0 (F := Ideal) V c).arrAt_eq_of_cover 3 (scaleCol (V c main_v0) (V c main_v1) (V c main_arg2))
    (flushed_eq V c) tiles_cover

end Cert.ReferenceIdeal.Acc

end
-- ==== Proof.RefValue.lean ====
/-
  The reference's result as one function of its three arguments.

  Reading the last valuation at the result buffer, backwards: it is the scaling region's result array regrouped into
  64 x 64 planes; that array is the regrouped input times, channel by channel, the column the accumulate region wrote;
  that column is the scale of each channel computed from the batch element's per-channel sums, taken as two halves of
  2048 positions added one after the other to a zero. The regrouped input at (b, c, l) is the input at
  (b, c, l / 64, l % 64), so each half sum is, term by term, a sum over the plane's entries. The arguments of the
  reference are never written, and the first weight reaches the region with its axes exchanged.
-/
import proofs.«161758_g2000407024704625_pallasbulk_269_21_alg».proof.Proof.RefRun
import proofs.«161758_g2000407024704625_pallasbulk_269_21_alg».proof.Proof.ScaleValue
import proofs.«161758_g2000407024704625_pallasbulk_269_21_alg».proof.Proof.AccValue
import proofs.«161758_g2000407024704625_pallasbulk_269_21_alg».proof.Proof.Spec
import Idealize.ShloMosaic.Lib.Pipeline.Value
import Idealize.ShloMosaic.Lib.StableHlo.Run

noncomputable section

namespace Cert.ReferenceIdeal.Run

open Idealize.ShloMosaic Idealize.ShloMosaic.TcCoe Idealize.ShloMosaic.ValueIdx Idealize.SL.Sem
open Idealize.ShloMosaic.Pipeline (Dat)
open Cert.ReferenceIdeal Cert.ReferenceIdeal.Gen

variable (m : (ℓ : Loc nD τ sig) → Buf (Elt Ideal) ℓ) (ρ : Dev nD → PrngReg)

/-- The accumulate region finds the input regrouped into rows of 4096 positions, -/
theorem E1_main_v0 (c : Dev nD) :
    (E1 m ρ c main_v0 : S32x512x4096.Idx → Ideal .f32)
      = shapeCast S32x512x4096 (m ((c : Thread nD τ).loc main_arg0)) Gen.shapeCasts_S32x512x64x64_S32x512x4096 := by
  show StableHlo.after Gen.hostOps0 (fun b => m (c, b)) (Proc.devRef .tc main_v0) = _
  after_results
  rfl

/-- the first weight with its axes exchanged, -/
theorem E1_main_v1 (c : Dev nD) :
    (E1 m ρ c main_v1 : S512x32.Idx → Ideal .f32) = Cert.SE.w1T (m ((c : Thread nD τ).loc main_arg1)) := by
  show StableHlo.after Gen.hostOps0 (fun b => m (c, b)) (Proc.devRef .tc main_v1) = _
  after_results
  rfl

/-- and the second weight as launched. -/
theorem E1_main_arg2 (c : Dev nD) : E1 m ρ c main_arg2 = m ((c : Thread nD τ).loc main_arg2) :=
  StableHlo.after_of_writes_sub hostOps0 _ hostOps0_writes (r := main_arg2) (by decide)

/-- The scaling region finds the regrouped input as the accumulate region found it (an input window there), -/
theorem E2_main_v0 (c : Dev nD) : E2 m ρ c main_v0 = E1 m ρ c main_v0 :=
  (B2_arr m ρ c 0).trans (((Acc.dat0 (E1 m ρ) c).arrAt_in 0 rfl _).trans (Acc.A_eq0 (E1 m ρ) c 0))

/-- and the column of scales the accumulate region wrote. -/
theorem E2_main_v2 (c : Dev nD) :
    E2 m ρ c main_v2 = Acc.scaleCol (E1 m ρ c main_v0) (E1 m ρ c main_v1) (E1 m ρ c main_arg2) :=
  (B2_arr m ρ c 3).trans (Acc.final0 (E1 m ρ) c)

/-- What the scaling region leaves: the regrouped input times its channel's scale. -/
theorem B3_main_v3 (c : Dev nD) :
    B3 m ρ c (Proc.devRef .tc main_v3) = Scale.scaled (E2 m ρ c main_v0) (E2 m ρ c main_v2) :=
  (B3_arr m ρ c 2).trans (Scale.final1 (E2 m ρ) c)

/-- The result buffer: that array regrouped into planes. -/
theorem B4_main_v4 (c : Dev nD) :
    (B4 m ρ c (Proc.devRef .tc main_v4) : S32x512x64x64.Idx → Ideal .f32)
      = shapeCast S32x512x64x64 (B3 m ρ c (Proc.devRef .tc main_v3)) Gen.shapeCasts_S32x512x4096_S32x512x64x64 := by
  show StableHlo.after Gen.hostOps2 (B3 m ρ c) (Proc.devRef .tc main_v4) = _
  after_results
  rfl

/-- The regrouped input at (b, c, l) is the input at (b, c, l / 64, l % 64): both sit at row-major position
    (b * 512 + c) * 4096 + l. -/
theorem regroup_apply (X : FVec Ideal Cert.SE.SX .f32) (b : Fin 32) (c : Fin 512) (l : Fin 4096) :
    shapeCast S32x512x4096 X Gen.shapeCasts_S32x512x64x64_S32x512x4096 (ix3 b c l)
      = X (ix4 b c ⟨l.val / 64, by omega⟩ ⟨l.val % 64, by omega⟩) :=
  shapeCast_apply X Gen.shapeCasts_S32x512x64x64_S32x512x4096 _ _ (by
    rw [Shape.rowMajor_val_four, Shape.rowMajor_val_three]
    show ((b.val * 512 + c.val) * 64 + l.val / 64) * 64 + l.val % 64 = (b.val * 512 + c.val) * 4096 + l.val
    omega)

/-- The two half sums over the regrouped input are the two half sums over the planes. -/
theorem accSplit3_regroup (X : FVec Ideal Cert.SE.SX .f32) (b : Fin 32) :
    Acc.accSplit3 (shapeCast S32x512x4096 X Gen.shapeCasts_S32x512x64x64_S32x512x4096) b = Cert.SE.accSplit X b := by
  funext j
  unfold Acc.accSplit3 Cert.SE.accSplit
  refine congrArg₂ (· + ·) (congrArg (Ideal.ofBits .f32 0x00000000#32 + ·) ?_) ?_
  · exact Finset.sum_congr rfl fun l _ => regroup_apply X b (j 0) ⟨l.val, by omega⟩
  · exact Finset.sum_congr rfl fun l _ => regroup_apply X b (j 0) ⟨2048 + l.val, by omega⟩

/-- Regrouped back into planes, the scaled array is every input entry times its channel's scale. -/
theorem tail_eq_out (X : FVec Ideal Cert.SE.SX .f32) (w1 : FVec Ideal Cert.SE.SW1 .f32) (w2 : FVec Ideal Cert.SE.SW .f32) :
    (shapeCast S32x512x64x64
        (Scale.scaled (shapeCast S32x512x4096 X Gen.shapeCasts_S32x512x64x64_S32x512x4096)
          (Acc.scaleCol (shapeCast S32x512x4096 X Gen.shapeCasts_S32x512x64x64_S32x512x4096) (Cert.SE.w1T w1) w2))
        Gen.shapeCasts_S32x512x4096_S32x512x64x64 : FVec Ideal S32x512x64x64 .f32)
      = Cert.SE.out (Cert.SE.accSplit X) X w1 w2 := by
  funext i
  obtain ⟨b, c, y, z, rfl⟩ : ∃ (b : Fin 32) (c : Fin 512) (y z : Fin 64), i = ix4 b c y z :=
    ⟨i 0, i 1, i 2, i 3, eq_ix4 i⟩
  have hl : y.val * 64 + z.val < 4096 := by omega
  refine (shapeCast_apply _ Gen.shapeCasts_S32x512x4096_S32x512x64x64 (ix4 b c y z)
    (ix3 b c (⟨y.val * 64 + z.val, hl⟩ : Fin 4096)) (by
      rw [Shape.rowMajor_val_four, Shape.rowMajor_val_three]
      show (b.val * 512 + c.val) * 4096 + (y.val * 64 + z.val) = ((b.val * 512 + c.val) * 64 + y.val) * 64 + z.val
      omega)).trans ?_
  show shapeCast S32x512x4096 X Gen.shapeCasts_S32x512x64x64_S32x512x4096 (ix3 b c (⟨y.val * 64 + z.val, hl⟩ : Fin 4096))
      * Cert.SE.excite (Acc.accSplit3 (shapeCast S32x512x4096 X Gen.shapeCasts_S32x512x64x64_S32x512x4096) b)
          (Cert.SE.w1T w1) w2 (ix2 c (0 : Fin 1))
    = X (ix4 b c y z) * Cert.SE.excite (Cert.SE.accSplit X b) (Cert.SE.w1T w1) w2 (ix2 c (0 : Fin 1))
  rw [accSplit3_regroup, regroup_apply]
  have e : (ix4 b c (⟨(y.val * 64 + z.val) / 64, by omega⟩ : Fin 64) (⟨(y.val * 64 + z.val) % 64, by omega⟩ : Fin 64)
      : Cert.SE.SX.Idx) = ix4 b c y z := by
    have hy : (y.val * 64 + z.val) / 64 = y.val := by omega
    have hz : (y.val * 64 + z.val) % 64 = z.val := by omega
    funext a
    match a with
    | ⟨0, _⟩ => rfl
    | ⟨1, _⟩ => rfl
    | ⟨2, _⟩ => exact Fin.ext hy
    | ⟨3, _⟩ => exact Fin.ext hz
  rw [e]

/-- The reference's result buffer after the run is the specification, with the half-by-half sums, of the launch
    contents of its arguments. -/
theorem result_eq (c : Dev nD) :
    B4 m ρ c (Proc.devRef .tc main_v4)
      = Cert.SE.out (Cert.SE.accSplit (m ((c.tc : Thread nD τ).loc main_arg0))) (m ((c.tc : Thread nD τ).loc main_arg0))
          (m ((c.tc : Thread nD τ).loc main_arg1)) (m ((c.tc : Thread nD τ).loc main_arg2)) := by
  rw [B4_main_v4, B3_main_v3, E2_main_v2, E2_main_v0, E1_main_v0, E1_main_v1, E1_main_arg2]
  exact tail_eq_out _ _ _

end Cert.ReferenceIdeal.Run

end
-- ==== Proof.lean ====
/-
  A squeeze-and-excite block over x : batch x channel x 64 x 64 with two weights. Per batch element and channel, a(c) is
  the sum of the channel's 4096 entries; the channel's scale is
      s(c) = logistic (sum_j w2(c, j) * max (sum_c' w1(j, c') * (a(c') * 2^-12)) 0),
  and the result is x scaled channel by channel. The kernel does this in one pass per batch element (one region over
  blocks of 512 x 4096, stored in a 16-bit format and widened back: the identity on extended reals). The reference does
  it in two regions: the first adds up each channel in two halves of 2048 entries, keeping the running column in a
  scratch buffer, and writes the column of scales; the second multiplies.

  At the ideal values both are the same function of the arguments: the chain from the column of sums to the column of
  scales is one and the same chain of operations in both programs and is never opened; what differs is only how the
  column of sums is formed, and (0 + first half) + second half is the one-pass sum because addition of extended reals is
  associative with unit zero - no finiteness of the inputs is used.

  The kernel's two frames are the generated class-A frames. The reference's frame is its value run with the result
  dropped. The ideal pass rewrote nothing, so the idealization claim is trivial.
-/
import proofs.«161758_g2000407024704625_pallasbulk_269_21_alg».proof.Defs
import proofs.«161758_g2000407024704625_pallasbulk_269_21_alg».proof.Proof.Gen.Kernel
import proofs.«161758_g2000407024704625_pallasbulk_269_21_alg».proof.Proof.Gen.Kernel.Frame
import proofs.«161758_g2000407024704625_pallasbulk_269_21_alg».proof.Proof.Gen.KernelIdeal
import proofs.«161758_g2000407024704625_pallasbulk_269_21_alg».proof.Proof.Gen.KernelIdeal.Frame
import proofs.«161758_g2000407024704625_pallasbulk_269_21_alg».proof.Proof.Gen.ReferenceIdeal
import proofs.«161758_g2000407024704625_pallasbulk_269_21_alg».proof.Proof.Gen.Pre_finite_inputs
import proofs.«161758_g2000407024704625_pallasbulk_269_21_alg».proof.Proof.KernelRun
import proofs.«161758_g2000407024704625_pallasbulk_269_21_alg».proof.Proof.RefValue
import proofs.«161758_g2000407024704625_pallasbulk_269_21_alg».proof.Proof.Spec
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ

/-- The reference terminates with its arguments unchanged: its value run, the result forgotten. -/
theorem frame_ri : Cert.frame_ReferenceIdeal := fun m ρ _ =>
  (θ_run Cert.ReferenceIdeal.defs _ _).mono (fun _ h c => (h c).2) (Cert.ReferenceIdeal.Run.run (F := Ideal) m ρ)

theorem preserves : Cert.preserves_Kernel_KernelIdeal := trivial

/-- From memories agreeing on the arguments both programs end with the input scaled channel by channel, the kernel
    with each channel summed in one pass, the reference with it summed half by half: one function. -/
theorem algebraic : Cert.algebraic_KernelIdeal_ReferenceIdeal := by
  intro m ρ m' ρ' _ hagree
  refine ⟨_, Cert.KernelIdeal.KV.run m ρ, ?_⟩
  refine (θ_run Cert.ReferenceIdeal.defs _ _).mono (fun _ h c => ⟨(h c).1.trans ?_, (h c).2⟩)
    (Cert.ReferenceIdeal.Run.run (F := Ideal) m' ρ')
  rw [Cert.ReferenceIdeal.Run.result_eq, (hagree c).1, (hagree c).2.1, (hagree c).2.2]
  exact Cert.SE.out_split_eq_flat _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
